-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S2x1000000 : Shape := ⟨2, ![2, 1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S2x3200000 32) (main_arg2 : IVec S2x1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S2x3200000 : Shape := ⟨2, ![2, 3200000]⟩
abbrev S2x1000000 : Shape := ⟨2, ![2, 1000000]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S10000x64 : Shape := ⟨2, ![10000, 64]⟩
abbrev S3200000x64 : Shape := ⟨2, ![3200000, 64]⟩
abbrev S6400x64 : Shape := ⟨2, ![6400, 64]⟩
abbrev S6400x1 : Shape := ⟨2, ![6400, 1]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 116
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S2x1000000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000, .f32⟩
  | .hbm, ⟨42, _⟩ => ⟨S3200000, .f32⟩
  | .hbm, ⟨43, _⟩ => ⟨S3200000x1, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S3200000x64, .f32⟩
  | .hbm, ⟨57, _⟩ => ⟨S_, .f32⟩
  | .hbm, ⟨58, _⟩ => ⟨S100000x64, .f32⟩
  | .hbm, ⟨59, _⟩ => ⟨S3200000x1, .i32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000x64, .f32⟩
  | .hbm, ⟨71, _⟩ => ⟨S3200000x64, .f32⟩
  | .hbm, ⟨72, _⟩ => ⟨S_, .f32⟩
  | .hbm, ⟨73, _⟩ => ⟨S100000x64, .f32⟩
  | .hbm, ⟨74, _⟩ => ⟨S3200000x1, .i32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S3200000, .i32⟩
  | .hbm, ⟨79, _⟩ => ⟨S3200000, .i1⟩
  | .hbm, ⟨80, _⟩ => ⟨S_, .i32⟩
  | .hbm, ⟨81, _⟩ => ⟨S3200000, .i32⟩
  | .hbm, ⟨82, _⟩ => ⟨S3200000, .i32⟩
  | .hbm, ⟨83, _⟩ => ⟨S3200000, .i32⟩
  | .hbm, ⟨84, _⟩ => ⟨S3200000x1, .i32⟩
  | .hbm, ⟨85, _⟩ => ⟨S3200000x64, .f32⟩
  | .hbm, ⟨86, _⟩ => ⟨S3200000x64, .f32⟩
  | .hbm, ⟨87, _⟩ => ⟨S_, .f32⟩
  | .hbm, ⟨88, _⟩ => ⟨S100000x64, .f32⟩
  | .hbm, ⟨89, _⟩ => ⟨S3200000x1, .i32⟩
  | .hbm, ⟨90, _⟩ => ⟨S100000x64, .f32⟩
  | .hbm, ⟨91, _⟩ => ⟨S100000x64, .f32⟩
  | .hbm, ⟨92, _⟩ => ⟨S1x1000000, .i32⟩
  | .hbm, ⟨93, _⟩ => ⟨S1000000, .i32⟩
  | .hbm, ⟨94, _⟩ => ⟨S1x1000000, .i32⟩
  | .hbm, ⟨95, _⟩ => ⟨S1000000, .i32⟩
  | .hbm, ⟨96, _⟩ => ⟨S_, .i32⟩
  | .hbm, ⟨97, _⟩ => ⟨S1000000, .i32⟩
  | .hbm, ⟨98, _⟩ => ⟨S1000000, .i1⟩
  | .hbm, ⟨99, _⟩ => ⟨S_, .i32⟩
  | .hbm, ⟨100, _⟩ => ⟨S1000000, .i32⟩
  | .hbm, ⟨101, _⟩ => ⟨S1000000, .i32⟩
  | .hbm, ⟨102, _⟩ => ⟨S1000000, .i32⟩
  | .hbm, ⟨103, _⟩ => ⟨S1000000x1, .i32⟩
  | .hbm, ⟨104, _⟩ => ⟨S1000000x64, .f32⟩
  | .hbm, ⟨105, _⟩ => ⟨S_, .i32⟩
  | .hbm, ⟨106, _⟩ => ⟨S1000000, .i32⟩
  | .hbm, ⟨107, _⟩ => ⟨S1000000, .i1⟩
  | .hbm, ⟨108, _⟩ => ⟨S_, .i32⟩
  | .hbm, ⟨109, _⟩ => ⟨S1000000, .i32⟩
  | .hbm, ⟨110, _⟩ => ⟨S1000000, .i32⟩
  | .hbm, ⟨111, _⟩ => ⟨S1000000, .i32⟩
  | .hbm, ⟨112, _⟩ => ⟨S1000000x1, .i32⟩
  | .hbm, ⟨113, _⟩ => ⟨S1000000x64, .f32⟩
  | .hbm, ⟨114, _⟩ => ⟨S1000000x1, .f32⟩
  | .hbm, ⟨115, _⟩ => ⟨S1000000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S6400x64, .f32⟩
  | .local _ .vmem, ⟨7, _⟩ => ⟨S6400x64, .f32⟩
  | .local _ .vmem, ⟨8, _⟩ => ⟨S6400x1, .f32⟩
  | .local _ .vmem, ⟨9, _⟩ => ⟨S6400x1, .f32⟩
  | .local _ .vmem, ⟨10, _⟩ => ⟨S6400x64, .f32⟩
  | .local _ .vmem, ⟨11, _⟩ => ⟨S6400x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S6400x64, .f32⟩
  | .local _ .vmem, ⟨19, _⟩ => ⟨S6400x64, .f32⟩
  | .local _ .vmem, ⟨20, _⟩ => ⟨S6400x1, .f32⟩
  | .local _ .vmem, ⟨21, _⟩ => ⟨S6400x1, .f32⟩
  | .local _ .vmem, ⟨22, _⟩ => ⟨S6400x64, .f32⟩
  | .local _ .vmem, ⟨23, _⟩ => ⟨S6400x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S6400x64, .f32⟩
  | .local _ .vmem, ⟨31, _⟩ => ⟨S6400x64, .f32⟩
  | .local _ .vmem, ⟨32, _⟩ => ⟨S6400x1, .f32⟩
  | .local _ .vmem, ⟨33, _⟩ => ⟨S6400x1, .f32⟩
  | .local _ .vmem, ⟨34, _⟩ => ⟨S6400x64, .f32⟩
  | .local _ .vmem, ⟨35, _⟩ => ⟨S6400x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S8000x64, .f32⟩
  | .local _ .vmem, ⟨43, _⟩ => ⟨S8000x64, .f32⟩
  | .local _ .vmem, ⟨44, _⟩ => ⟨S8000x64, .f32⟩
  | .local _ .vmem, ⟨45, _⟩ => ⟨S8000x64, .f32⟩
  | .local _ .vmem, ⟨46, _⟩ => ⟨S8000x1, .f32⟩
  | .local _ .vmem, ⟨47, _⟩ => ⟨S8000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_11 : Ref sig .tc := ⟨.hbm, 62, rfl⟩
abbrev main_v44 : Ref sig .tc := ⟨.hbm, 63, rfl⟩
abbrev main_v45 : Ref sig .tc := ⟨.hbm, 64, rfl⟩
abbrev main_c_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_14 : Ref sig .tc := ⟨.hbm, 77, rfl⟩
abbrev main_v56 : Ref sig .tc := ⟨.hbm, 78, rfl⟩
abbrev main_v57 : Ref sig .tc := ⟨.hbm, 79, rfl⟩
abbrev main_c_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_17 : Ref sig .tc := ⟨.hbm, 96, rfl⟩
abbrev main_v72 : Ref sig .tc := ⟨.hbm, 97, rfl⟩
abbrev main_v73 : Ref sig .tc := ⟨.hbm, 98, rfl⟩
abbrev main_c_18 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_19 : Ref sig .tc := ⟨.hbm, 105, rfl⟩
abbrev main_v79 : Ref sig .tc := ⟨.hbm, 106, rfl⟩
abbrev main_v80 : Ref sig .tc := ⟨.hbm, 107, rfl⟩
abbrev main_c_20 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6400x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![500], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6400x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6400x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6400x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![125], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S1000000x1_S1000000 : S1000000x1.ShapeCasts S1000000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S1000000x1_S1000000x64_1_0_n_n_0_1_164_wf : GatherDims.WF S100000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S3200000x64.size a
  hwx1_0 : ∀ i : grid1.Coords, EltTy.bits .f32 = 32 ∨ (Rect.block (s := S3200000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S3200000x1.size a
  hwx1_1 : ∀ i : grid1.Coords, EltTy.bits .f32 = 32 ∨ (Rect.block (s := S3200000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x64.size a ≤ S3200000x64.size a
  hwx1_2 : ∀ i : grid1.Coords, EltTy.bits .f32 = 32 ∨ (Rect.block (s := S3200000x64) S6400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x64.size a ≤ S3200000x64.size a
  hwx3_0 : ∀ i : grid3.Coords, EltTy.bits .f32 = 32 ∨ (Rect.block (s := S3200000x64) S6400x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x1.size a ≤ S3200000x1.size a
  hwx3_1 : ∀ i : grid3.Coords, EltTy.bits .f32 = 32 ∨ (Rect.block (s := S3200000x1) S6400x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6400x64.size a ≤ S3200000x64.size a
  hwx3_2 : ∀ i : grid3.Coords, EltTy.bits .f32 = 32 ∨ (Rect.block (s := S3200000x64) S6400x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6400x64.size a ≤ S3200000x64.size a
  hwx5_0 : ∀ i : grid5.Coords, EltTy.bits .f32 = 32 ∨ (Rect.block (s := S3200000x64) S6400x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6400x1.size a ≤ S3200000x1.size a
  hwx5_1 : ∀ i : grid5.Coords, EltTy.bits .f32 = 32 ∨ (Rect.block (s := S3200000x1) S6400x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6400x64.size a ≤ S3200000x64.size a
  hwx5_2 : ∀ i : grid5.Coords, EltTy.bits .f32 = 32 ∨ (Rect.block (s := S3200000x64) S6400x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S1000000x64.size a
  hwx7_0 : ∀ i : grid7.Coords, EltTy.bits .f32 = 32 ∨ (Rect.block (s := S1000000x64) S8000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x64.size a ≤ S1000000x64.size a
  hwx7_1 : ∀ i : grid7.Coords, EltTy.bits .f32 = 32 ∨ (Rect.block (s := S1000000x64) S8000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x1.size a ≤ S1000000x1.size a
  hwx7_2 : ∀ i : grid7.Coords, EltTy.bits .f32 = 32 ∨ (Rect.block (s := S1000000x1) S8000x1.size (cc7_transform_2 i) (hinb7_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S6400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S6400x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S6400x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S6400x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S6400x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S6400x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S6400x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v66) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v55) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v67) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v85) S8000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v86) S8000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S2x1000000 : Shape := ⟨2, ![2, 1000000]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x3200000, .i32⟩
  | 2 => ⟨S2x1000000, .i32⟩
  | 3 => ⟨S1x3200000, .i32⟩
  | 4 => ⟨S3200000, .i32⟩
  | 5 => ⟨S1x3200000, .i32⟩
  | 6 => ⟨S3200000, .i32⟩
  | 7 => ⟨S_, .f32⟩
  | 8 => ⟨S3200000, .f32⟩
  | 9 => ⟨S_, .f32⟩
  | 10 => ⟨S100000, .f32⟩
  | 11 => ⟨S3200000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S100000, .f32⟩
  | 18 => ⟨S100000, .f32⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S3200000x1, .f32⟩
  | 44 => ⟨S_, .f32⟩
  | 45 => ⟨S100000x64, .f32⟩
  | 46 => ⟨S100000x64, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x64, .f32⟩
  | 56 => ⟨S3200000x64, .f32⟩
  | 57 => ⟨S3200000x64, .f32⟩
  | 58 => ⟨S_, .f32⟩
  | 59 => ⟨S100000x64, .f32⟩
  | 60 => ⟨S3200000x1, .i32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S3200000x64, .f32⟩
  | 75 => ⟨S3200000x64, .f32⟩
  | 76 => ⟨S3200000x64, .f32⟩
  | 77 => ⟨S_, .f32⟩
  | 78 => ⟨S100000x64, .f32⟩
  | 79 => ⟨S3200000x1, .i32⟩
  | 80 => ⟨S100000x64, .f32⟩
  | 81 => ⟨S_, .f32⟩
  | 82 => ⟨S100000x64, .f32⟩
  | 83 => ⟨S100000x64, .f32⟩
  | 84 => ⟨S100000x64, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000x64, .f32⟩
  | 94 => ⟨S3200000x64, .f32⟩
  | 95 => ⟨S3200000x64, .f32⟩
  | 96 => ⟨S_, .f32⟩
  | 97 => ⟨S100000x64, .f32⟩
  | 98 => ⟨S3200000x1, .i32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S1x1000000, .i32⟩
  | 105 => ⟨S1000000, .i32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S1x1000000, .i32⟩
  | 116 => ⟨S1000000, .i32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x64, .f32⟩
  | 126 => ⟨S1000000x64, .f32⟩
  | 127 => ⟨S_, .f32⟩
  | _ => ⟨S100000x64, .f32⟩

abbrev hbmTy0_1 (i : Nat) : BufTy := match i % 128 with
  | 0 => ⟨S1000000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_12 : Ref sig .tc := ⟨.hbm, 66, rfl⟩
abbrev main_v47 : Ref sig .tc := ⟨.hbm, 67, rfl⟩
abbrev main_v48 : Ref sig .tc := ⟨.hbm, 68, rfl⟩
abbrev main_c_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_16 : Ref sig .tc := ⟨.hbm, 85, rfl⟩
abbrev main_v62 : Ref sig .tc := ⟨.hbm, 86, rfl⟩
abbrev main_v63 : Ref sig .tc := ⟨.hbm, 87, rfl⟩
abbrev main_c_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_18 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_19 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_20 : Ref sig .tc := ⟨.hbm, 106, rfl⟩
abbrev main_v79 : Ref sig .tc := ⟨.hbm, 107, rfl⟩
abbrev main_v80 : Ref sig .tc := ⟨.hbm, 108, rfl⟩
abbrev main_c_21 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_22 : Ref sig .tc := ⟨.hbm, 117, rfl⟩
abbrev main_v88 : Ref sig .tc := ⟨.hbm, 118, rfl⟩
abbrev main_v89 : Ref sig .tc := ⟨.hbm, 119, rfl⟩
abbrev main_c_23 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_24 : Ref sig .tc := ⟨.hbm, 127, rfl⟩
abbrev main_v96 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S3200000x1_S3200000x64_0_1 : S3200000x1.BroadcastsInDim S3200000x64 (![0, 1] : Fin 2 → Fin S3200000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x64_S1000000_d1 : S1000000x64.ReducesTo [1] S1000000
  h_S_ : 0 < S_.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S1000000x1_S1000000x64_1_0_n_n_0_1_164_wf : GatherDims.WF S100000x64 S1000000x1 S1000000x64 [1] [0] [] [0] [] 1 ![1, 64]

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.KernelRun.lean ====
/-
  The kernel's run, with every tensor buffer read at the end.

  The program is eight pipelined regions among stretches of host operations. Its buffers' contents at each boundary
  form a fold from the launch memory: a stretch applies its operations, a region replaces its arrays by what its
  write-backs leave. The last boundary's contents are `W19`. Every weakly fair execution terminates, and in the final
  memory every buffer that outlives a region holds its `W19` contents — in particular the result buffer, which is
  what a value claim needs, beside the three arguments.
-/
import proofs.«140938_j9955734192814_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Any property of the final memory that follows from "every buffer outliving a region holds its `W19` contents" holds
    after every weakly fair execution: the launch over the program's nineteen segments, the last thread state read
    against the final state. -/
theorem run_read {Q : PUnit × MemSt nD τ sig (Elt F) → Prop}
    (hQ : ∀ s : MemSt nD τ sig (Elt F),
      (∀ c : Dev nD, ∀ b ∈ Pipeline.ucRefs τ sig, s.mem (((c : Thread nD τ)).1, b) = W19 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := hQ)

/-- The run with the result buffer and the arguments read: the result at its `W19` contents, each argument as launched. -/
theorem run_result : θ_run defs (onTc (τ := τ) (main (F := F))) ⟨m, fun _ => 0, ρ⟩ (fun r => ∀ c : Dev nD,
      r.2.mem ((c.tc : Thread nD τ).loc main_v87) = W19 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_read m ρ fun s h c =>
    ⟨h c _ (mem_uc main_v87 (by decide)),
     (h c _ (mem_uc main_arg0 (by decide))).trans (W19_main_arg0 m ρ c),
     (h c _ (mem_uc main_arg1 (by decide))).trans (W19_main_arg1 m ρ c),
     (h c _ (mem_uc main_arg2 (by decide))).trans (W19_main_arg2 m ρ c)⟩

end Cert.KernelIdeal.Run

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowMin.lean ====
/-
  Minimum reductions of a matrix, at the ideal values, and sums down its columns.
  * For an [a, b] matrix reduced along its second axis into a vector of length a, a minimum reduction reads, at r, the
    fold of min over k < b of the entries (r, k), started from the accumulator's value.
  * The host's sum along the rows reads, at r, the initial value plus the sum over k < b of the entries (r, k).
  * For an [a, b] matrix reduced along its FIRST axis into a vector of length b: the index of the matrix that lies over
    position c of the vector with k inserted on the reduced axis is (k, c); the host's minimum reduction reads, at c, the
    fold of min over k < a of the entries (k, c), started from the initial value; the host's sum reads, at c, the initial
    value plus the sum over k < a of the entries (k, c).
-/
import Idealize.ShloMosaic.PureOps.Ideal.Laws
import Idealize.ShloMosaic.PureOps.Reduce
import Idealize.ShloMosaic.Lib.ValueIdx

noncomputable section

namespace Cert.LibRowMin

open Idealize.ShloMosaic Idealize.ShloMosaic.ValueIdx

/-- Over position `r` of the reduced vector, with `k` on the reduced (second) axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The minimum along a row: at `r`, the fold of `min` over the row's entries from the accumulator's value. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_eq_fold src acc h hφ hacc (ix1 r)).trans ?_
  refine (h.fold_filter_drop_single FloatOps.minimumf (FloatOps.ofBits φ acc) src (ix1 r)).trans ?_
  exact congrArg (Finset.fold min (Ideal.ofBits φ acc) · (Finset.univ : Finset (Fin b)))
    (funext fun k => congrArg src (lift_row h r k))

/-- The host's sum along a row: at `r`, the initial value plus the sum over the row's entries. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (r : Fin a) :
    Host.reduceAdd x init h' hu (ix1 r) = init (Shape.Idx.first hu) + ∑ k : Fin b, x (ix2 r k) :=
  (Ideal.hostReduceAdd_single h' h x (init (Shape.Idx.first hu)) (ix1 r)).trans
    (congrArg (init (Shape.Idx.first hu) + ·) (Finset.sum_congr rfl fun k _ => congrArg x (lift_row h r k)))

/-- The host's minimum down a column: at `c`, the fold of `min` over the column's entries from the initial value. -/
theorem hostColMin_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩) (hu : 0 < u.numel) (c : Fin b) :
    Host.reduce FloatOps.minimumf x init h' hu (ix1 c)
      = (Finset.univ : Finset (Fin a)).fold min (init (Shape.Idx.first hu)) (fun k => x (ix2 k c)) := by
  refine (Host.reduce_eq_fold_single FloatOps.minimumf x init h' h hu (ix1 c)).trans ?_
  exact congrArg (Finset.fold min (init (Shape.Idx.first hu)) · (Finset.univ : Finset (Fin a)))
    (funext fun k => congrArg x (lift_col h c k))

end Cert.LibRowMin

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.Stages.lean ====
/-
  The three array functions the kernel's regions compute, written with the host's operations, and what each holds at
  one position.

  * `accumulate acc x`: the running layer sum, acc + x · ¼ on [100000, 64] (the weight ¼ a scalar spread over the array).
  * `scaleRows x w`: every row e of an edge-feature array [3200000, 64] multiplied by that edge's weight w(e, 0), the weight
    column [3200000, 1] spread along the 64 features.
  * `rowDots a b`: for each query q the dot product Σ_d a(q, d) · b(q, d) over the 64 features, kept as a [1000000, 1] column:
    the host's sum along axis 1 started from the zero word, then a change of shape.
  All at the ideal values, where a product and a sum are those of the extended reals.
-/
import proofs.«140938_j9955734192814_2_alg».proof.KernelIdeal
import Idealize.ShloMosaic.PureOps.Ideal.Laws
import Idealize.ShloMosaic.Lib.ValueIdx
import Idealize.ShloMosaic.Lib.Pipeline.Value
import proofs.«140938_j9955734192814_2_alg».proof.Proof.LibColumn
import proofs.«140938_j9955734192814_2_alg».proof.Proof.LibRowMin
import proofs.«140938_j9955734192814_2_alg».proof.Proof.LibHostBroadcast

noncomputable section

namespace Cert.Stages

open Idealize.ShloMosaic Idealize.ShloMosaic.ValueIdx Cert.KernelIdeal

/-- acc + x · ¼, the weight the word 0x3E800000 spread over the whole array. -/
def accumulate (hb : S_.BroadcastsInDim S100000x64 (![] : Fin 0 → Fin S100000x64.rank))
    (acc x : FVec Ideal S100000x64 .f32) : FVec Ideal S100000x64 .f32 :=
  addf acc (mulf x (broadcastInDim S100000x64 ![] hb (constant S_ .f32 0x3E800000#32)))

theorem accumulate_apply (hb : S_.BroadcastsInDim S100000x64 (![] : Fin 0 → Fin S100000x64.rank))
    (acc x : FVec Ideal S100000x64 .f32) (n : Fin 100000) (d : Fin 64) :
    accumulate hb acc x (ix2 n d) = acc (ix2 n d) + x (ix2 n d) * Ideal.ofBits .f32 0x3E800000#32 := by
  show acc (ix2 n d) + x (ix2 n d) * broadcastInDim S100000x64 ![] hb (constant (F := Ideal) S_ .f32 0x3E800000#32) (ix2 n d) = _
  rw [Cert.LibHostBroadcast.scalar_to_any]
  rfl

/-- Row e of x times the weight w(e, 0). -/
def scaleRows (hb : S3200000x1.BroadcastsInDim S3200000x64 (![0, 1] : Fin 2 → Fin S3200000x64.rank))
    (x : FVec Ideal S3200000x64 .f32) (w : FVec Ideal S3200000x1 .f32) : FVec Ideal S3200000x64 .f32 :=
  mulf x (broadcastInDim S3200000x64 ![0, 1] hb w)

theorem scaleRows_apply (hb : S3200000x1.BroadcastsInDim S3200000x64 (![0, 1] : Fin 2 → Fin S3200000x64.rank))
    (x : FVec Ideal S3200000x64 .f32) (w : FVec Ideal S3200000x1 .f32) (e : Fin 3200000) (d : Fin 64) :
    scaleRows hb x w (ix2 e d) = x (ix2 e d) * w (ix2 e (0 : Fin 1)) := by
  show x (ix2 e d) * broadcastInDim S3200000x64 ![0, 1] hb w (ix2 e d) = _
  rw [Cert.LibHostBroadcast.col_to_mat]

/-- The dot product of row q of a with row q of b, as a column. -/
def rowDots (hr : S1000000x64.ReducesTo [1] S1000000) (hz : 0 < S_.numel) (hs : S1000000.ShapeCasts S1000000x1)
    (a b : FVec Ideal S1000000x64 .f32) : FVec Ideal S1000000x1 .f32 :=
  shapeCast S1000000x1 (Host.reduceAdd (mulf a b) (constant S_ .f32 0x00000000#32) hr hz) hs

theorem rowDots_apply (hr : S1000000x64.ReducesTo [1] S1000000) (hz : 0 < S_.numel) (hs : S1000000.ShapeCasts S1000000x1)
    (a b : FVec Ideal S1000000x64 .f32) (q : Fin 1000000) (u : Fin 1) :
    rowDots hr hz hs a b (ix2 q u) = Ideal.ofBits .f32 0x00000000#32 + ∑ d : Fin 64, a (ix2 q d) * b (ix2 q d) := by
  unfold rowDots
  rw [Cert.LibColumn.shapeCast_a_a1_apply]
  exact Cert.LibRowMin.hostRowSum_apply (mulf a b) (constant S_ .f32 0x00000000#32) hr (by decide) hz q

end Cert.Stages

end
-- ==== Proof.LibRegionAsOp.lean ====
/-
  A pipelined region seen from outside is one pure operation on whole arrays.

  When a region is left, the buffers hold what they held when it was entered, except the region's own arrays, which
  hold what the write-backs left. If those final arrays are exactly what a single host operation would compute from
  the entry contents (the inputs untouched, each output a pure function of the inputs), then the buffer contents at
  the exit ARE that operation's result on the entry contents, as whole valuations. A program of several regions among
  host operations is then one straight line of pure operations, and its results are read off by folding that line.
-/
import Idealize.ShloMosaic.Lib.Pipeline.FrameSuffix
import Idealize.ShloMosaic.Lib.StableHlo.Run

noncomputable section

namespace Cert.LibRegionAsOp

open Idealize.ShloMosaic Idealize.ShloMosaic.StableHlo Idealize.ShloMosaic.Pipeline

variable {nD : Nat} {τ : Topo} {sig : RefSig} {Val : EltTy → Type}

/-- The exit contents of a region whose arrays end at `A` are the result of the operation `op` on the entry contents
    `V`, provided every array of the region ends at what `op` leaves in it (`hA`: for an array `op` does not write
    this says it is unchanged) and `op` writes nothing but arrays of the region (`hsub`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val)
    (hA : ∀ w, A w = op.result V (Proc.devRef .tc (arrRef win w)))
    (hsub : ∀ b ∈ op.writes, ∃ w, Proc.devRef .tc (arrRef win w) = b) :
    withArrays win c V A = op.result V := by
  funext b
  by_cases h : ∃ w, Proc.devRef .tc (arrRef win w) = b
  · obtain ⟨w, rfl⟩ := h
    rw [withArrays_arr win hinj c V A w, hA w]
  · unfold withArrays
    rw [dif_neg h]
    exact (op.result_of_not_mem V fun hb => h (hsub b hb)).symm

end Cert.LibRegionAsOp

end
-- ==== Proof.Region0.lean ====
/-
  Region 0 (the layer accumulation) as one operation on whole arrays.

  The region walks ten blocks of 10000 rows. At block t it loads rows 10000·t … 10000·t + 9999 of the new layer x and of
  the running sum acc, and stores acc + x · ¼ into the same rows of the output. A position (n, d) of the output lies in
  exactly one block, t = n / 10000, so once every block is written back the output array is acc + x · ¼ at every
  position: the function `accumulate` of the two input arrays as the region found them. The two inputs are never
  written. Hence the buffer contents at the region's exit are the entry contents with that one array replaced — the
  result of a single binary operation.
-/
import proofs.«140938_j9955734192814_2_alg».proof.Proof.Gen.KernelIdeal.Frame
import proofs.«140938_j9955734192814_2_alg».proof.Proof.Stages
import proofs.«140938_j9955734192814_2_alg».proof.Proof.LibRegionAsOp
import Idealize.ShloMosaic.Lib.Pipeline.Value
import Idealize.ShloMosaic.Lib.Pipeline.Cells

set_option maxRecDepth 16384

noncomputable section

namespace Cert.KernelIdeal.Region0

open Cert.KernelIdeal Cert.KernelIdeal.Gen Cert.Stages
open Idealize.ShloMosaic Idealize.ShloMosaic.TcCoe Idealize.ShloMosaic.ValueIdx Idealize.ShloMosaic.StableHlo
open Idealize.ShloMosaic.Pipeline (Dat Cfg Window)

variable (hb : S_.BroadcastsInDim S100000x64 (![] : Fin 0 → Fin S100000x64.rank))
variable (V : (c : Dev nD) → (b : Ref sig .tc) → Buf (Elt Ideal) ((c : Thread nD τ).loc b))

theorem origin_zero : (![0, 0] : Fin 2 → Nat) = fun _ => 0 := funext fun a => by fin_cases a <;> rfl

/-- What the body stores, at one position of the block: the running sum's entry plus the new layer's entry times ¼. -/
theorem pay_apply (v0 v2 : Vec Ideal S10000x64 .f32) (j : S10000x64.Idx) :
    k0_pay1 v0 v2 j = v0 j + v2 j * Ideal.ofBits .f32 0x3E800000#32 := by
  unfold k0_pay1
  simp only [shapeCast_self]
  rfl

/-- Block t of each of the three windows starts at row block t and column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 :=
  lt_of_lt_of_eq t.isLt (show cfg0.N = 10 from N_0)

/-- Position (p, d) of block t is position (10000·t + p, d) of the array, for each window. -/
theorem emb0 (t : Fin cfg0.N) (p : Fin 10000) (d : Fin 64) (h : t.val * 10000 + p.val < 100000) :
    (((cfg0.win 0).blk t).view.emb (ix2 p d) : S100000x64.Idx) = ix2 ⟨t.val * 10000 + p.val, h⟩ d := by
  obtain ⟨e0, e1, -, -, -, -⟩ := idx_facts t
  funext a; apply Fin.ext
  match a with
  | ⟨0, _⟩ => show win0_0.index t (0 : Fin 2) * 10000 + 1 * p.val = t.val * 10000 + p.val; rw [e0]; omega
  | ⟨1, _⟩ => show win0_0.index t (1 : Fin 2) * 64 + 1 * d.val = d.val; rw [e1]; omega

theorem emb1 (t : Fin cfg0.N) (p : Fin 10000) (d : Fin 64) (h : t.val * 10000 + p.val < 100000) :
    (((cfg0.win 1).blk t).view.emb (ix2 p d) : S100000x64.Idx) = ix2 ⟨t.val * 10000 + p.val, h⟩ d := by
  obtain ⟨-, -, e2, e3, -, -⟩ := idx_facts t
  funext a; apply Fin.ext
  match a with
  | ⟨0, _⟩ => show win0_1.index t (0 : Fin 2) * 10000 + 1 * p.val = t.val * 10000 + p.val; rw [e2]; omega
  | ⟨1, _⟩ => show win0_1.index t (1 : Fin 2) * 64 + 1 * d.val = d.val; rw [e3]; omega

theorem emb2 (t : Fin cfg0.N) (p : Fin 10000) (d : Fin 64) (h : t.val * 10000 + p.val < 100000) :
    (((cfg0.win 2).blk t).view.emb (ix2 p d) : S100000x64.Idx) = ix2 ⟨t.val * 10000 + p.val, h⟩ d := by
  obtain ⟨-, -, -, -, e4, e5⟩ := idx_facts t
  funext a; apply Fin.ext
  match a with
  | ⟨0, _⟩ => show win0_2.index t (0 : Fin 2) * 10000 + 1 * p.val = t.val * 10000 + p.val; rw [e4]; omega
  | ⟨1, _⟩ => show win0_2.index t (1 : Fin 2) * 64 + 1 * d.val = d.val; rw [e5]; omega

/-- What point t writes back is block t of `accumulate` of the two input arrays as the region finds them. -/
theorem flushed_eq (c : Dev nD) (t : Fin cfg0.N) :
    (dat0 V c).flushed 2 t
      = ((cfg0.win 2).blk t).view.read (Elt Ideal) (accumulate hb (V c main_v30) (V c main_arg0)) := by
  show (cfg0.win 2).cut (grid0.coords t) ((dat0 V c).after 2 t) = _
  rw [after0_2]
  unfold out0_2
  rw [View.canon_unit_zero origin_zero]
  simp only [View.ld_unit_zero (S := S10000x64) origin_zero]
  funext j
  obtain ⟨p, d, rfl⟩ : ∃ (p : Fin 10000) (d : Fin 64), j = ix2 p d := ⟨j 0, j 1, eq_ix2 j⟩
  have hp := p.isLt
  have ht := point_lt t
  have h : t.val * 10000 + p.val < 100000 := by omega
  show k0_pay1 (iblk0 V c 1 t) (iblk0 V c 0 t) (ix2 p d)
    = accumulate hb (V c main_v30) (V c main_arg0) (((cfg0.win 2).blk t).view.emb (ix2 p d))
  refine (pay_apply (iblk0 V c 1 t) (iblk0 V c 0 t) (ix2 p d)).trans ?_
  rw [emb2 t p d h, accumulate_apply]
  have h1 : iblk0 V c 1 t (ix2 p d) = V c main_v30 (ix2 ⟨t.val * 10000 + p.val, h⟩ d) := by
    show V c main_v30 (((cfg0.win 1).blk t).view.emb (ix2 p d)) = _
    exact congrArg (V c main_v30) (emb1 t p d h)
  have h0 : iblk0 V c 0 t (ix2 p d) = V c main_arg0 (ix2 ⟨t.val * 10000 + p.val, h⟩ d) := by
    show V c main_arg0 (((cfg0.win 0).blk t).view.emb (ix2 p d)) = _
    exact congrArg (V c main_arg0) (emb0 t p d h)
  rw [h1, h0]

/-- A position of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- Every position (n, d) lies in the block of the point n / 10000, and every point writes its block back. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := by rw [show cfg0.N = 10 from N_0]; omega
  obtain ⟨-, -, -, -, e4, e5⟩ := idx_facts ⟨(i 0).val / 10000, hN⟩
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    rw [e5]; omega

/-- The output array after the region: `accumulate` of the two input arrays as the region found them. -/
theorem final (c : Dev nD) : (dat0 V c).arrAt 2 cfg0.N = accumulate hb (V c main_v30) (V c main_arg0) :=
  (dat0 V c).arrAt_eq_of_cover 2 _ (fun t _ => flushed_eq hb V c t) cover

/-- The region as an operation: the output takes `accumulate` of the running sum and the new layer. -/
abbrev op : HloOp τ sig (Elt Ideal) :=
  binary main_arg0 main_v30 main_v31 (fun x acc => accumulate hb acc x)

/-- The buffer contents at the region's exit, from any entry contents `Wd`, are that operation's result on them. -/
theorem exit_eq (Wd : Dev nD → Valuation τ sig (Elt Ideal)) (c : Dev nD) :
    Pipeline.withArrays spec0 c (Wd c) (fun w => (dat0 (fun c b => Wd c b) c).arrAt w cfg0.N)
      = (op hb).result (Wd c) := by
  refine Cert.LibRegionAsOp.withArrays_eq_result spec0 launch0.win.arr_inj c (Wd c) _ (op hb) (fun w => ?_) (fun b hb' => ?_)
  · match w with
    | ⟨0, _⟩ =>
      refine ((dat0 (fun c b => Wd c b) c).arrAt_in 0 rfl cfg0.N).trans ?_
      exact (binary_result_ne main_arg0 main_v30 main_v31 _ _ _ _ (Wd c) (by decide)).symm
    | ⟨1, _⟩ =>
      refine ((dat0 (fun c b => Wd c b) c).arrAt_in 1 rfl cfg0.N).trans ?_
      exact (binary_result_ne main_arg0 main_v30 main_v31 _ _ _ _ (Wd c) (by decide)).symm
    | ⟨2, _⟩ =>
      refine (final hb (fun c b => Wd c b) c).trans ?_
      exact (binary_result main_arg0 main_v30 main_v31 (fun x acc => accumulate hb acc x) _ _ _ (Wd c)).symm
  · exact ⟨2, (Finset.mem_singleton.mp hb').symm⟩

end Cert.KernelIdeal.Region0

end
-- ==== Proof.Region1.lean ====
/-
  Region 1 (the edge messages) as one operation on whole arrays.

  The region walks 500 blocks of 6400 edges. At block t it loads rows 6400·t … 6400·t + 6399 of the gathered source
  features and the same rows of the weight column, and stores each feature row multiplied by its edge's weight into the
  same rows of the output. A position (e, d) of the output lies in exactly one block, t = e / 6400, so once every block is
  written back the output array holds x(e, d) · w(e, 0) at every position: the function `scaleRows` of the two input
  arrays as the region found them. The inputs are never written, so the buffer contents at the region's exit are the
  entry contents with that one array replaced — the result of a single binary operation.
-/
import proofs.«140938_j9955734192814_2_alg».proof.Proof.Gen.KernelIdeal.Frame
import proofs.«140938_j9955734192814_2_alg».proof.Proof.Stages
import proofs.«140938_j9955734192814_2_alg».proof.Proof.LibRegionAsOp
import proofs.«140938_j9955734192814_2_alg».proof.Proof.LibColumn
import Idealize.ShloMosaic.Lib.Pipeline.Value
import Idealize.ShloMosaic.Lib.Pipeline.Cells

set_option maxRecDepth 16384

noncomputable section

namespace Cert.KernelIdeal.Region1

open Cert.KernelIdeal Cert.KernelIdeal.Gen Cert.Stages
open Idealize.ShloMosaic Idealize.ShloMosaic.TcCoe Idealize.ShloMosaic.ValueIdx Idealize.ShloMosaic.StableHlo
open Idealize.ShloMosaic.Pipeline (Dat Cfg Window)

variable (hb : S3200000x1.BroadcastsInDim S3200000x64 (![0, 1] : Fin 2 → Fin S3200000x64.rank))
variable (V : (c : Dev nD) → (b : Ref sig .tc) → Buf (Elt Ideal) ((c : Thread nD τ).loc b))

theorem origin_zero : (![0, 0] : Fin 2 → Nat) = fun _ => 0 := funext fun a => by fin_cases a <;> rfl

/-- What the body stores, at one position of the block: the feature times the weight of its row. -/
theorem pay_apply (v0 : Vec Ideal S6400x64 .f32) (v2 : Vec Ideal S6400x1 .f32) (p : Fin 6400) (d : Fin 64) :
    k1_pay1 v0 v2 (ix2 p d) = v0 (ix2 p d) * v2 (ix2 p (0 : Fin 1)) := by
  unfold k1_pay1
  simp only [shapeCast_self]
  show v0 (ix2 p d) * broadcastTo S6400x64 v2 broadcasts_S6400x1_S6400x64 (ix2 p d) = _
  rw [Cert.LibColumn.broadcastTo_a1_ab_apply]

/-- Block t of each of the three windows starts at row block t and column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 500 :=
  lt_of_lt_of_eq t.isLt (show cfg1.N = 500 from N_1)

/-- Position (p, d) of block t is position (6400·t + p, d) of the array, for each window. -/
theorem emb0 (t : Fin cfg1.N) (p : Fin 6400) (d : Fin 64) (h : t.val * 6400 + p.val < 3200000) :
    (((cfg1.win 0).blk t).view.emb (ix2 p d) : S3200000x64.Idx) = ix2 ⟨t.val * 6400 + p.val, h⟩ d := by
  obtain ⟨e0, e1, -, -, -, -⟩ := idx_facts t
  funext a; apply Fin.ext
  match a with
  | ⟨0, _⟩ => show win1_0.index t (0 : Fin 2) * 6400 + 1 * p.val = t.val * 6400 + p.val; rw [e0]; omega
  | ⟨1, _⟩ => show win1_0.index t (1 : Fin 2) * 64 + 1 * d.val = d.val; rw [e1]; omega

theorem emb1 (t : Fin cfg1.N) (p : Fin 6400) (u : Fin 1) (h : t.val * 6400 + p.val < 3200000) :
    (((cfg1.win 1).blk t).view.emb (ix2 p u) : S3200000x1.Idx) = ix2 ⟨t.val * 6400 + p.val, h⟩ u := by
  obtain ⟨-, -, e2, e3, -, -⟩ := idx_facts t
  funext a; apply Fin.ext
  match a with
  | ⟨0, _⟩ => show win1_1.index t (0 : Fin 2) * 6400 + 1 * p.val = t.val * 6400 + p.val; rw [e2]; omega
  | ⟨1, _⟩ => show win1_1.index t (1 : Fin 2) * 1 + 1 * u.val = u.val; rw [e3]; omega

theorem emb2 (t : Fin cfg1.N) (p : Fin 6400) (d : Fin 64) (h : t.val * 6400 + p.val < 3200000) :
    (((cfg1.win 2).blk t).view.emb (ix2 p d) : S3200000x64.Idx) = ix2 ⟨t.val * 6400 + p.val, h⟩ d := by
  obtain ⟨-, -, -, -, e4, e5⟩ := idx_facts t
  funext a; apply Fin.ext
  match a with
  | ⟨0, _⟩ => show win1_2.index t (0 : Fin 2) * 6400 + 1 * p.val = t.val * 6400 + p.val; rw [e4]; omega
  | ⟨1, _⟩ => show win1_2.index t (1 : Fin 2) * 64 + 1 * d.val = d.val; rw [e5]; omega

/-- What point t writes back is block t of `scaleRows` of the two input arrays as the region finds them. -/
theorem flushed_eq (c : Dev nD) (t : Fin cfg1.N) :
    (dat1 V c).flushed 2 t
      = ((cfg1.win 2).blk t).view.read (Elt Ideal) (scaleRows hb (V c main_v38) (V c main_v29)) := by
  show (cfg1.win 2).cut (grid1.coords t) ((dat1 V c).after 2 t) = _
  rw [after1_2]
  unfold out1_2
  rw [View.canon_unit_zero origin_zero]
  simp only [View.ld_unit_zero (S := S6400x64) origin_zero, View.ld_unit_zero (S := S6400x1) origin_zero]
  funext j
  obtain ⟨p, d, rfl⟩ : ∃ (p : Fin 6400) (d : Fin 64), j = ix2 p d := ⟨j 0, j 1, eq_ix2 j⟩
  have hp := p.isLt
  have ht := point_lt t
  have h : t.val * 6400 + p.val < 3200000 := by omega
  show k1_pay1 (iblk1 V c 0 t) (iblk1 V c 1 t) (ix2 p d)
    = scaleRows hb (V c main_v38) (V c main_v29) (((cfg1.win 2).blk t).view.emb (ix2 p d))
  refine (pay_apply (iblk1 V c 0 t) (iblk1 V c 1 t) p d).trans ?_
  rw [emb2 t p d h, scaleRows_apply]
  have h0 : iblk1 V c 0 t (ix2 p d) = V c main_v38 (ix2 ⟨t.val * 6400 + p.val, h⟩ d) := by
    show V c main_v38 (((cfg1.win 0).blk t).view.emb (ix2 p d)) = _
    exact congrArg (V c main_v38) (emb0 t p d h)
  have h1 : iblk1 V c 1 t (ix2 p (0 : Fin 1)) = V c main_v29 (ix2 ⟨t.val * 6400 + p.val, h⟩ (0 : Fin 1)) := by
    show V c main_v29 (((cfg1.win 1).blk t).view.emb (ix2 p (0 : Fin 1))) = _
    exact congrArg (V c main_v29) (emb1 t p 0 h)
  rw [h0, h1]

/-- A position of the array is in point t's block iff each coordinate is in the block's range on its axis. -/
theorem mem_blk (t : Fin cfg1.N) (i : S3200000x64.Idx) :
    i ∈ ((cfg1.win 2).blk t).view.set ↔ ∀ a : Fin 2, win1_2.index t a * S6400x64.size a ≤ (i a).val
      ∧ (i a).val < win1_2.index t a * S6400x64.size a + S6400x64.size a := by
  show i ∈ ((View.whole main_v39).slice (win1_2.rect t)).set ↔ _
  rw [View.set_slice_whole, Rect.mem_set_unit]
  exact Iff.rfl

/-- Every position (e, d) lies in the block of the point e / 6400, and every point writes its block back. -/
theorem cover (i : S3200000x64.Idx) :
    ∃ t : Fin cfg1.N, (cfg1.win 2).flush t = true ∧ i ∈ ((cfg1.win 2).blk t).view.set := by
  have hi0 : (i 0).val < 3200000 := (i 0).isLt
  have hi1 : (i 1).val < 64 := (i 1).isLt
  have hN : (i 0).val / 6400 < cfg1.N := by rw [show cfg1.N = 500 from N_1]; omega
  obtain ⟨-, -, -, -, e4, e5⟩ := idx_facts ⟨(i 0).val / 6400, hN⟩
  refine ⟨⟨(i 0).val / 6400, hN⟩, flush1_2 _, ?_⟩
  rw [mem_blk]
  intro a
  match a with
  | ⟨0, _⟩ =>
    show win1_2.index ⟨(i 0).val / 6400, hN⟩ (0 : Fin 2) * 6400 ≤ (i 0).val
      ∧ (i 0).val < win1_2.index ⟨(i 0).val / 6400, hN⟩ (0 : Fin 2) * 6400 + 6400
    rw [e4]; show (i 0).val / 6400 * 6400 ≤ (i 0).val ∧ (i 0).val < (i 0).val / 6400 * 6400 + 6400; omega
  | ⟨1, _⟩ =>
    show win1_2.index ⟨(i 0).val / 6400, hN⟩ (1 : Fin 2) * 64 ≤ (i 1).val
      ∧ (i 1).val < win1_2.index ⟨(i 0).val / 6400, hN⟩ (1 : Fin 2) * 64 + 64
    rw [e5]; omega

/-- The output array after the region: `scaleRows` of the two input arrays as the region found them. -/
theorem final (c : Dev nD) : (dat1 V c).arrAt 2 cfg1.N = scaleRows hb (V c main_v38) (V c main_v29) :=
  (dat1 V c).arrAt_eq_of_cover 2 _ (fun t _ => flushed_eq hb V c t) cover

/-- The region as an operation: the output takes `scaleRows` of the gathered features and the weight column. -/
abbrev op : HloOp τ sig (Elt Ideal) :=
  binary main_v38 main_v29 main_v39 (fun x w => scaleRows hb x w)

/-- The buffer contents at the region's exit, from any entry contents `Wd`, are that operation's result on them. -/
theorem exit_eq (Wd : Dev nD → Valuation τ sig (Elt Ideal)) (c : Dev nD) :
    Pipeline.withArrays spec1 c (Wd c) (fun w => (dat1 (fun c b => Wd c b) c).arrAt w cfg1.N)
      = (op hb).result (Wd c) := by
  refine Cert.LibRegionAsOp.withArrays_eq_result spec1 launch1.win.arr_inj c (Wd c) _ (op hb) (fun w => ?_) (fun b hb' => ?_)
  · match w with
    | ⟨0, _⟩ =>
      refine ((dat1 (fun c b => Wd c b) c).arrAt_in 0 rfl cfg1.N).trans ?_
      exact (binary_result_ne main_v38 main_v29 main_v39 _ _ _ _ (Wd c) (by decide)).symm
    | ⟨1, _⟩ =>
      refine ((dat1 (fun c b => Wd c b) c).arrAt_in 1 rfl cfg1.N).trans ?_
      exact (binary_result_ne main_v38 main_v29 main_v39 _ _ _ _ (Wd c) (by decide)).symm
    | ⟨2, _⟩ =>
      refine (final hb (fun c b => Wd c b) c).trans ?_
      exact (binary_result main_v38 main_v29 main_v39 (fun x w => scaleRows hb x w) _ _ _ (Wd c)).symm
  · exact ⟨2, (Finset.mem_singleton.mp hb').symm⟩

end Cert.KernelIdeal.Region1

end
-- ==== Proof.Region2.lean ====
/-
  Region 2 (the layer accumulation) as one operation on whole arrays.

  The region walks ten blocks of 10000 rows. At block t it loads rows 10000·t … 10000·t + 9999 of the new layer x and of
  the running sum acc, and stores acc + x · ¼ into the same rows of the output. A position (n, d) of the output lies in
  exactly one block, t = n / 10000, so once every block is written back the output array is acc + x · ¼ at every
  position: the function `accumulate` of the two input arrays as the region found them. The two inputs are never
  written. Hence the buffer contents at the region's exit are the entry contents with that one array replaced — the
  result of a single binary operation.
-/
import proofs.«140938_j9955734192814_2_alg».proof.Proof.Gen.KernelIdeal.Frame
import proofs.«140938_j9955734192814_2_alg».proof.Proof.Stages
import proofs.«140938_j9955734192814_2_alg».proof.Proof.LibRegionAsOp
import Idealize.ShloMosaic.Lib.Pipeline.Value
import Idealize.ShloMosaic.Lib.Pipeline.Cells

set_option maxRecDepth 16384

noncomputable section

namespace Cert.KernelIdeal.Region2

open Cert.KernelIdeal Cert.KernelIdeal.Gen Cert.Stages
open Idealize.ShloMosaic Idealize.ShloMosaic.TcCoe Idealize.ShloMosaic.ValueIdx Idealize.ShloMosaic.StableHlo
open Idealize.ShloMosaic.Pipeline (Dat Cfg Window)

variable (hb : S_.BroadcastsInDim S100000x64 (![] : Fin 0 → Fin S100000x64.rank))
variable (V : (c : Dev nD) → (b : Ref sig .tc) → Buf (Elt Ideal) ((c : Thread nD τ).loc b))

theorem origin_zero : (![0, 0] : Fin 2 → Nat) = fun _ => 0 := funext fun a => by fin_cases a <;> rfl

/-- What the body stores, at one position of the block: the running sum's entry plus the new layer's entry times ¼. -/
theorem pay_apply (v0 v2 : Vec Ideal S10000x64 .f32) (j : S10000x64.Idx) :
    k2_pay1 v0 v2 j = v0 j + v2 j * Ideal.ofBits .f32 0x3E800000#32 := by
  unfold k2_pay1
  simp only [shapeCast_self]
  rfl

/-- Block t of each of the three windows starts at row block t and column block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 10 :=
  lt_of_lt_of_eq t.isLt (show cfg2.N = 10 from N_2)

/-- Position (p, d) of block t is position (10000·t + p, d) of the array, for each window. -/
theorem emb0 (t : Fin cfg2.N) (p : Fin 10000) (d : Fin 64) (h : t.val * 10000 + p.val < 100000) :
    (((cfg2.win 0).blk t).view.emb (ix2 p d) : S100000x64.Idx) = ix2 ⟨t.val * 10000 + p.val, h⟩ d := by
  obtain ⟨e0, e1, -, -, -, -⟩ := idx_facts t
  funext a; apply Fin.ext
  match a with
  | ⟨0, _⟩ => show win2_0.index t (0 : Fin 2) * 10000 + 1 * p.val = t.val * 10000 + p.val; rw [e0]; omega
  | ⟨1, _⟩ => show win2_0.index t (1 : Fin 2) * 64 + 1 * d.val = d.val; rw [e1]; omega

theorem emb1 (t : Fin cfg2.N) (p : Fin 10000) (d : Fin 64) (h : t.val * 10000 + p.val < 100000) :
    (((cfg2.win 1).blk t).view.emb (ix2 p d) : S100000x64.Idx) = ix2 ⟨t.val * 10000 + p.val, h⟩ d := by
  obtain ⟨-, -, e2, e3, -, -⟩ := idx_facts t
  funext a; apply Fin.ext
  match a with
  | ⟨0, _⟩ => show win2_1.index t (0 : Fin 2) * 10000 + 1 * p.val = t.val * 10000 + p.val; rw [e2]; omega
  | ⟨1, _⟩ => show win2_1.index t (1 : Fin 2) * 64 + 1 * d.val = d.val; rw [e3]; omega

theorem emb2 (t : Fin cfg2.N) (p : Fin 10000) (d : Fin 64) (h : t.val * 10000 + p.val < 100000) :
    (((cfg2.win 2).blk t).view.emb (ix2 p d) : S100000x64.Idx) = ix2 ⟨t.val * 10000 + p.val, h⟩ d := by
  obtain ⟨-, -, -, -, e4, e5⟩ := idx_facts t
  funext a; apply Fin.ext
  match a with
  | ⟨0, _⟩ => show win2_2.index t (0 : Fin 2) * 10000 + 1 * p.val = t.val * 10000 + p.val; rw [e4]; omega
  | ⟨1, _⟩ => show win2_2.index t (1 : Fin 2) * 64 + 1 * d.val = d.val; rw [e5]; omega

/-- What point t writes back is block t of `accumulate` of the two input arrays as the region finds them. -/
theorem flushed_eq (c : Dev nD) (t : Fin cfg2.N) :
    (dat2 V c).flushed 2 t
      = ((cfg2.win 2).blk t).view.read (Elt Ideal) (accumulate hb (V c main_v31) (V c main_v42)) := by
  show (cfg2.win 2).cut (grid2.coords t) ((dat2 V c).after 2 t) = _
  rw [after2_2]
  unfold out2_2
  rw [View.canon_unit_zero origin_zero]
  simp only [View.ld_unit_zero (S := S10000x64) origin_zero]
  funext j
  obtain ⟨p, d, rfl⟩ : ∃ (p : Fin 10000) (d : Fin 64), j = ix2 p d := ⟨j 0, j 1, eq_ix2 j⟩
  have hp := p.isLt
  have ht := point_lt t
  have h : t.val * 10000 + p.val < 100000 := by omega
  show k2_pay1 (iblk2 V c 1 t) (iblk2 V c 0 t) (ix2 p d)
    = accumulate hb (V c main_v31) (V c main_v42) (((cfg2.win 2).blk t).view.emb (ix2 p d))
  refine (pay_apply (iblk2 V c 1 t) (iblk2 V c 0 t) (ix2 p d)).trans ?_
  rw [emb2 t p d h, accumulate_apply]
  have h1 : iblk2 V c 1 t (ix2 p d) = V c main_v31 (ix2 ⟨t.val * 10000 + p.val, h⟩ d) := by
    show V c main_v31 (((cfg2.win 1).blk t).view.emb (ix2 p d)) = _
    exact congrArg (V c main_v31) (emb1 t p d h)
  have h0 : iblk2 V c 0 t (ix2 p d) = V c main_v42 (ix2 ⟨t.val * 10000 + p.val, h⟩ d) := by
    show V c main_v42 (((cfg2.win 0).blk t).view.emb (ix2 p d)) = _
    exact congrArg (V c main_v42) (emb0 t p d h)
  rw [h1, h0]

/-- A position of the array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v43).slice (win2_2.rect t)).set ↔ _
  rw [View.set_slice_whole, Rect.mem_set_unit]
  exact Iff.rfl

/-- Every position (n, d) lies in the block of the point n / 10000, and every point writes its block back. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 10000 < cfg2.N := by rw [show cfg2.N = 10 from N_2]; omega
  obtain ⟨-, -, -, -, e4, e5⟩ := idx_facts ⟨(i 0).val / 10000, hN⟩
  refine ⟨⟨(i 0).val / 10000, hN⟩, flush2_2 _, ?_⟩
  rw [mem_blk]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hN⟩ (1 : Fin 2) * 64 ≤ (i 1).val
      ∧ (i 1).val < win2_2.index ⟨(i 0).val / 10000, hN⟩ (1 : Fin 2) * 64 + 64
    rw [e5]; omega

/-- The output array after the region: `accumulate` of the two input arrays as the region found them. -/
theorem final (c : Dev nD) : (dat2 V c).arrAt 2 cfg2.N = accumulate hb (V c main_v31) (V c main_v42) :=
  (dat2 V c).arrAt_eq_of_cover 2 _ (fun t _ => flushed_eq hb V c t) cover

/-- The region as an operation: the output takes `accumulate` of the running sum and the new layer. -/
abbrev op : HloOp τ sig (Elt Ideal) :=
  binary main_v42 main_v31 main_v43 (fun x acc => accumulate hb acc x)

/-- The buffer contents at the region's exit, from any entry contents `Wd`, are that operation's result on them. -/
theorem exit_eq (Wd : Dev nD → Valuation τ sig (Elt Ideal)) (c : Dev nD) :
    Pipeline.withArrays spec2 c (Wd c) (fun w => (dat2 (fun c b => Wd c b) c).arrAt w cfg2.N)
      = (op hb).result (Wd c) := by
  refine Cert.LibRegionAsOp.withArrays_eq_result spec2 launch2.win.arr_inj c (Wd c) _ (op hb) (fun w => ?_) (fun b hb' => ?_)
  · match w with
    | ⟨0, _⟩ =>
      refine ((dat2 (fun c b => Wd c b) c).arrAt_in 0 rfl cfg2.N).trans ?_
      exact (binary_result_ne main_v42 main_v31 main_v43 _ _ _ _ (Wd c) (by decide)).symm
    | ⟨1, _⟩ =>
      refine ((dat2 (fun c b => Wd c b) c).arrAt_in 1 rfl cfg2.N).trans ?_
      exact (binary_result_ne main_v42 main_v31 main_v43 _ _ _ _ (Wd c) (by decide)).symm
    | ⟨2, _⟩ =>
      refine (final hb (fun c b => Wd c b) c).trans ?_
      exact (binary_result main_v42 main_v31 main_v43 (fun x acc => accumulate hb acc x) _ _ _ (Wd c)).symm
  · exact ⟨2, (Finset.mem_singleton.mp hb').symm⟩

end Cert.KernelIdeal.Region2

end
-- ==== Proof.Region3.lean ====
/-
  Region 3 (the edge messages) as one operation on whole arrays.

  The region walks 500 blocks of 6400 edges. At block t it loads rows 6400·t … 6400·t + 6399 of the gathered source
  features and the same rows of the weight column, and stores each feature row multiplied by its edge's weight into the
  same rows of the output. A position (e, d) of the output lies in exactly one block, t = e / 6400, so once every block is
  written back the output array holds x(e, d) · w(e, 0) at every position: the function `scaleRows` of the two input
  arrays as the region found them. The inputs are never written, so the buffer contents at the region's exit are the
  entry contents with that one array replaced — the result of a single binary operation.
-/
import proofs.«140938_j9955734192814_2_alg».proof.Proof.Gen.KernelIdeal.Frame
import proofs.«140938_j9955734192814_2_alg».proof.Proof.Stages
import proofs.«140938_j9955734192814_2_alg».proof.Proof.LibRegionAsOp
import proofs.«140938_j9955734192814_2_alg».proof.Proof.LibColumn
import Idealize.ShloMosaic.Lib.Pipeline.Value
import Idealize.ShloMosaic.Lib.Pipeline.Cells

set_option maxRecDepth 16384

noncomputable section

namespace Cert.KernelIdeal.Region3

open Cert.KernelIdeal Cert.KernelIdeal.Gen Cert.Stages
open Idealize.ShloMosaic Idealize.ShloMosaic.TcCoe Idealize.ShloMosaic.ValueIdx Idealize.ShloMosaic.StableHlo
open Idealize.ShloMosaic.Pipeline (Dat Cfg Window)

variable (hb : S3200000x1.BroadcastsInDim S3200000x64 (![0, 1] : Fin 2 → Fin S3200000x64.rank))
variable (V : (c : Dev nD) → (b : Ref sig .tc) → Buf (Elt Ideal) ((c : Thread nD τ).loc b))

theorem origin_zero : (![0, 0] : Fin 2 → Nat) = fun _ => 0 := funext fun a => by fin_cases a <;> rfl

/-- What the body stores, at one position of the block: the feature times the weight of its row. -/
theorem pay_apply (v0 : Vec Ideal S6400x64 .f32) (v2 : Vec Ideal S6400x1 .f32) (p : Fin 6400) (d : Fin 64) :
    k3_pay1 v0 v2 (ix2 p d) = v0 (ix2 p d) * v2 (ix2 p (0 : Fin 1)) := by
  unfold k3_pay1
  simp only [shapeCast_self]
  show v0 (ix2 p d) * broadcastTo S6400x64 v2 broadcasts_S6400x1_S6400x64 (ix2 p d) = _
  rw [Cert.LibColumn.broadcastTo_a1_ab_apply]

/-- Block t of each of the three windows starts at row block t and column block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem point_lt (t : Fin cfg3.N) : t.val < 500 :=
  lt_of_lt_of_eq t.isLt (show cfg3.N = 500 from N_3)

/-- Position (p, d) of block t is position (6400·t + p, d) of the array, for each window. -/
theorem emb0 (t : Fin cfg3.N) (p : Fin 6400) (d : Fin 64) (h : t.val * 6400 + p.val < 3200000) :
    (((cfg3.win 0).blk t).view.emb (ix2 p d) : S3200000x64.Idx) = ix2 ⟨t.val * 6400 + p.val, h⟩ d := by
  obtain ⟨e0, e1, -, -, -, -⟩ := idx_facts t
  funext a; apply Fin.ext
  match a with
  | ⟨0, _⟩ => show win3_0.index t (0 : Fin 2) * 6400 + 1 * p.val = t.val * 6400 + p.val; rw [e0]; omega
  | ⟨1, _⟩ => show win3_0.index t (1 : Fin 2) * 64 + 1 * d.val = d.val; rw [e1]; omega

theorem emb1 (t : Fin cfg3.N) (p : Fin 6400) (u : Fin 1) (h : t.val * 6400 + p.val < 3200000) :
    (((cfg3.win 1).blk t).view.emb (ix2 p u) : S3200000x1.Idx) = ix2 ⟨t.val * 6400 + p.val, h⟩ u := by
  obtain ⟨-, -, e2, e3, -, -⟩ := idx_facts t
  funext a; apply Fin.ext
  match a with
  | ⟨0, _⟩ => show win3_1.index t (0 : Fin 2) * 6400 + 1 * p.val = t.val * 6400 + p.val; rw [e2]; omega
  | ⟨1, _⟩ => show win3_1.index t (1 : Fin 2) * 1 + 1 * u.val = u.val; rw [e3]; omega

theorem emb2 (t : Fin cfg3.N) (p : Fin 6400) (d : Fin 64) (h : t.val * 6400 + p.val < 3200000) :
    (((cfg3.win 2).blk t).view.emb (ix2 p d) : S3200000x64.Idx) = ix2 ⟨t.val * 6400 + p.val, h⟩ d := by
  obtain ⟨-, -, -, -, e4, e5⟩ := idx_facts t
  funext a; apply Fin.ext
  match a with
  | ⟨0, _⟩ => show win3_2.index t (0 : Fin 2) * 6400 + 1 * p.val = t.val * 6400 + p.val; rw [e4]; omega
  | ⟨1, _⟩ => show win3_2.index t (1 : Fin 2) * 64 + 1 * d.val = d.val; rw [e5]; omega

/-- What point t writes back is block t of `scaleRows` of the two input arrays as the region finds them. -/
theorem flushed_eq (c : Dev nD) (t : Fin cfg3.N) :
    (dat3 V c).flushed 2 t
      = ((cfg3.win 2).blk t).view.read (Elt Ideal) (scaleRows hb (V c main_v50) (V c main_v29)) := by
  show (cfg3.win 2).cut (grid3.coords t) ((dat3 V c).after 2 t) = _
  rw [after3_2]
  unfold out3_2
  rw [View.canon_unit_zero origin_zero]
  simp only [View.ld_unit_zero (S := S6400x64) origin_zero, View.ld_unit_zero (S := S6400x1) origin_zero]
  funext j
  obtain ⟨p, d, rfl⟩ : ∃ (p : Fin 6400) (d : Fin 64), j = ix2 p d := ⟨j 0, j 1, eq_ix2 j⟩
  have hp := p.isLt
  have ht := point_lt t
  have h : t.val * 6400 + p.val < 3200000 := by omega
  show k3_pay1 (iblk3 V c 0 t) (iblk3 V c 1 t) (ix2 p d)
    = scaleRows hb (V c main_v50) (V c main_v29) (((cfg3.win 2).blk t).view.emb (ix2 p d))
  refine (pay_apply (iblk3 V c 0 t) (iblk3 V c 1 t) p d).trans ?_
  rw [emb2 t p d h, scaleRows_apply]
  have h0 : iblk3 V c 0 t (ix2 p d) = V c main_v50 (ix2 ⟨t.val * 6400 + p.val, h⟩ d) := by
    show V c main_v50 (((cfg3.win 0).blk t).view.emb (ix2 p d)) = _
    exact congrArg (V c main_v50) (emb0 t p d h)
  have h1 : iblk3 V c 1 t (ix2 p (0 : Fin 1)) = V c main_v29 (ix2 ⟨t.val * 6400 + p.val, h⟩ (0 : Fin 1)) := by
    show V c main_v29 (((cfg3.win 1).blk t).view.emb (ix2 p (0 : Fin 1))) = _
    exact congrArg (V c main_v29) (emb1 t p 0 h)
  rw [h0, h1]

/-- A position of the array is in point t's block iff each coordinate is in the block's range on its axis. -/
theorem mem_blk (t : Fin cfg3.N) (i : S3200000x64.Idx) :
    i ∈ ((cfg3.win 2).blk t).view.set ↔ ∀ a : Fin 2, win3_2.index t a * S6400x64.size a ≤ (i a).val
      ∧ (i a).val < win3_2.index t a * S6400x64.size a + S6400x64.size a := by
  show i ∈ ((View.whole main_v51).slice (win3_2.rect t)).set ↔ _
  rw [View.set_slice_whole, Rect.mem_set_unit]
  exact Iff.rfl

/-- Every position (e, d) lies in the block of the point e / 6400, and every point writes its block back. -/
theorem cover (i : S3200000x64.Idx) :
    ∃ t : Fin cfg3.N, (cfg3.win 2).flush t = true ∧ i ∈ ((cfg3.win 2).blk t).view.set := by
  have hi0 : (i 0).val < 3200000 := (i 0).isLt
  have hi1 : (i 1).val < 64 := (i 1).isLt
  have hN : (i 0).val / 6400 < cfg3.N := by rw [show cfg3.N = 500 from N_3]; omega
  obtain ⟨-, -, -, -, e4, e5⟩ := idx_facts ⟨(i 0).val / 6400, hN⟩
  refine ⟨⟨(i 0).val / 6400, hN⟩, flush3_2 _, ?_⟩
  rw [mem_blk]
  intro a
  match a with
  | ⟨0, _⟩ =>
    show win3_2.index ⟨(i 0).val / 6400, hN⟩ (0 : Fin 2) * 6400 ≤ (i 0).val
      ∧ (i 0).val < win3_2.index ⟨(i 0).val / 6400, hN⟩ (0 : Fin 2) * 6400 + 6400
    rw [e4]; show (i 0).val / 6400 * 6400 ≤ (i 0).val ∧ (i 0).val < (i 0).val / 6400 * 6400 + 6400; omega
  | ⟨1, _⟩ =>
    show win3_2.index ⟨(i 0).val / 6400, hN⟩ (1 : Fin 2) * 64 ≤ (i 1).val
      ∧ (i 1).val < win3_2.index ⟨(i 0).val / 6400, hN⟩ (1 : Fin 2) * 64 + 64
    rw [e5]; omega

/-- The output array after the region: `scaleRows` of the two input arrays as the region found them. -/
theorem final (c : Dev nD) : (dat3 V c).arrAt 2 cfg3.N = scaleRows hb (V c main_v50) (V c main_v29) :=
  (dat3 V c).arrAt_eq_of_cover 2 _ (fun t _ => flushed_eq hb V c t) cover

/-- The region as an operation: the output takes `scaleRows` of the gathered features and the weight column. -/
abbrev op : HloOp τ sig (Elt Ideal) :=
  binary main_v50 main_v29 main_v51 (fun x w => scaleRows hb x w)

/-- The buffer contents at the region's exit, from any entry contents `Wd`, are that operation's result on them. -/
theorem exit_eq (Wd : Dev nD → Valuation τ sig (Elt Ideal)) (c : Dev nD) :
    Pipeline.withArrays spec3 c (Wd c) (fun w => (dat3 (fun c b => Wd c b) c).arrAt w cfg3.N)
      = (op hb).result (Wd c) := by
  refine Cert.LibRegionAsOp.withArrays_eq_result spec3 launch3.win.arr_inj c (Wd c) _ (op hb) (fun w => ?_) (fun b hb' => ?_)
  · match w with
    | ⟨0, _⟩ =>
      refine ((dat3 (fun c b => Wd c b) c).arrAt_in 0 rfl cfg3.N).trans ?_
      exact (binary_result_ne main_v50 main_v29 main_v51 _ _ _ _ (Wd c) (by decide)).symm
    | ⟨1, _⟩ =>
      refine ((dat3 (fun c b => Wd c b) c).arrAt_in 1 rfl cfg3.N).trans ?_
      exact (binary_result_ne main_v50 main_v29 main_v51 _ _ _ _ (Wd c) (by decide)).symm
    | ⟨2, _⟩ =>
      refine (final hb (fun c b => Wd c b) c).trans ?_
      exact (binary_result main_v50 main_v29 main_v51 (fun x w => scaleRows hb x w) _ _ _ (Wd c)).symm
  · exact ⟨2, (Finset.mem_singleton.mp hb').symm⟩

end Cert.KernelIdeal.Region3

end
-- ==== Proof.Region4.lean ====
/-
  Region 4 (the layer accumulation) as one operation on whole arrays.

  The region walks ten blocks of 10000 rows. At block t it loads rows 10000·t … 10000·t + 9999 of the new layer x and of
  the running sum acc, and stores acc + x · ¼ into the same rows of the output. A position (n, d) of the output lies in
  exactly one block, t = n / 10000, so once every block is written back the output array is acc + x · ¼ at every
  position: the function `accumulate` of the two input arrays as the region found them. The two inputs are never
  written. Hence the buffer contents at the region's exit are the entry contents with that one array replaced — the
  result of a single binary operation.
-/
import proofs.«140938_j9955734192814_2_alg».proof.Proof.Gen.KernelIdeal.Frame
import proofs.«140938_j9955734192814_2_alg».proof.Proof.Stages
import proofs.«140938_j9955734192814_2_alg».proof.Proof.LibRegionAsOp
import Idealize.ShloMosaic.Lib.Pipeline.Value
import Idealize.ShloMosaic.Lib.Pipeline.Cells

set_option maxRecDepth 16384

noncomputable section

namespace Cert.KernelIdeal.Region4

open Cert.KernelIdeal Cert.KernelIdeal.Gen Cert.Stages
open Idealize.ShloMosaic Idealize.ShloMosaic.TcCoe Idealize.ShloMosaic.ValueIdx Idealize.ShloMosaic.StableHlo
open Idealize.ShloMosaic.Pipeline (Dat Cfg Window)

variable (hb : S_.BroadcastsInDim S100000x64 (![] : Fin 0 → Fin S100000x64.rank))
variable (V : (c : Dev nD) → (b : Ref sig .tc) → Buf (Elt Ideal) ((c : Thread nD τ).loc b))

theorem origin_zero : (![0, 0] : Fin 2 → Nat) = fun _ => 0 := funext fun a => by fin_cases a <;> rfl

/-- What the body stores, at one position of the block: the running sum's entry plus the new layer's entry times ¼. -/
theorem pay_apply (v0 v2 : Vec Ideal S10000x64 .f32) (j : S10000x64.Idx) :
    k4_pay1 v0 v2 j = v0 j + v2 j * Ideal.ofBits .f32 0x3E800000#32 := by
  unfold k4_pay1
  simp only [shapeCast_self]
  rfl

/-- Block t of each of the three windows starts at row block t and column block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 10 :=
  lt_of_lt_of_eq t.isLt (show cfg4.N = 10 from N_4)

/-- Position (p, d) of block t is position (10000·t + p, d) of the array, for each window. -/
theorem emb0 (t : Fin cfg4.N) (p : Fin 10000) (d : Fin 64) (h : t.val * 10000 + p.val < 100000) :
    (((cfg4.win 0).blk t).view.emb (ix2 p d) : S100000x64.Idx) = ix2 ⟨t.val * 10000 + p.val, h⟩ d := by
  obtain ⟨e0, e1, -, -, -, -⟩ := idx_facts t
  funext a; apply Fin.ext
  match a with
  | ⟨0, _⟩ => show win4_0.index t (0 : Fin 2) * 10000 + 1 * p.val = t.val * 10000 + p.val; rw [e0]; omega
  | ⟨1, _⟩ => show win4_0.index t (1 : Fin 2) * 64 + 1 * d.val = d.val; rw [e1]; omega

theorem emb1 (t : Fin cfg4.N) (p : Fin 10000) (d : Fin 64) (h : t.val * 10000 + p.val < 100000) :
    (((cfg4.win 1).blk t).view.emb (ix2 p d) : S100000x64.Idx) = ix2 ⟨t.val * 10000 + p.val, h⟩ d := by
  obtain ⟨-, -, e2, e3, -, -⟩ := idx_facts t
  funext a; apply Fin.ext
  match a with
  | ⟨0, _⟩ => show win4_1.index t (0 : Fin 2) * 10000 + 1 * p.val = t.val * 10000 + p.val; rw [e2]; omega
  | ⟨1, _⟩ => show win4_1.index t (1 : Fin 2) * 64 + 1 * d.val = d.val; rw [e3]; omega

theorem emb2 (t : Fin cfg4.N) (p : Fin 10000) (d : Fin 64) (h : t.val * 10000 + p.val < 100000) :
    (((cfg4.win 2).blk t).view.emb (ix2 p d) : S100000x64.Idx) = ix2 ⟨t.val * 10000 + p.val, h⟩ d := by
  obtain ⟨-, -, -, -, e4, e5⟩ := idx_facts t
  funext a; apply Fin.ext
  match a with
  | ⟨0, _⟩ => show win4_2.index t (0 : Fin 2) * 10000 + 1 * p.val = t.val * 10000 + p.val; rw [e4]; omega
  | ⟨1, _⟩ => show win4_2.index t (1 : Fin 2) * 64 + 1 * d.val = d.val; rw [e5]; omega

/-- What point t writes back is block t of `accumulate` of the two input arrays as the region finds them. -/
theorem flushed_eq (c : Dev nD) (t : Fin cfg4.N) :
    (dat4 V c).flushed 2 t
      = ((cfg4.win 2).blk t).view.read (Elt Ideal) (accumulate hb (V c main_v43) (V c main_v54)) := by
  show (cfg4.win 2).cut (grid4.coords t) ((dat4 V c).after 2 t) = _
  rw [after4_2]
  unfold out4_2
  rw [View.canon_unit_zero origin_zero]
  simp only [View.ld_unit_zero (S := S10000x64) origin_zero]
  funext j
  obtain ⟨p, d, rfl⟩ : ∃ (p : Fin 10000) (d : Fin 64), j = ix2 p d := ⟨j 0, j 1, eq_ix2 j⟩
  have hp := p.isLt
  have ht := point_lt t
  have h : t.val * 10000 + p.val < 100000 := by omega
  show k4_pay1 (iblk4 V c 1 t) (iblk4 V c 0 t) (ix2 p d)
    = accumulate hb (V c main_v43) (V c main_v54) (((cfg4.win 2).blk t).view.emb (ix2 p d))
  refine (pay_apply (iblk4 V c 1 t) (iblk4 V c 0 t) (ix2 p d)).trans ?_
  rw [emb2 t p d h, accumulate_apply]
  have h1 : iblk4 V c 1 t (ix2 p d) = V c main_v43 (ix2 ⟨t.val * 10000 + p.val, h⟩ d) := by
    show V c main_v43 (((cfg4.win 1).blk t).view.emb (ix2 p d)) = _
    exact congrArg (V c main_v43) (emb1 t p d h)
  have h0 : iblk4 V c 0 t (ix2 p d) = V c main_v54 (ix2 ⟨t.val * 10000 + p.val, h⟩ d) := by
    show V c main_v54 (((cfg4.win 0).blk t).view.emb (ix2 p d)) = _
    exact congrArg (V c main_v54) (emb0 t p d h)
  rw [h1, h0]

/-- A position of the array is in point t's block iff each coordinate is in the block's range on its axis. -/
theorem mem_blk (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v55).slice (win4_2.rect t)).set ↔ _
  rw [View.set_slice_whole, Rect.mem_set_unit]
  exact Iff.rfl

/-- Every position (n, d) lies in the block of the point n / 10000, and every point writes its block back. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : (i 0).val / 10000 < cfg4.N := by rw [show cfg4.N = 10 from N_4]; omega
  obtain ⟨-, -, -, -, e4, e5⟩ := idx_facts ⟨(i 0).val / 10000, hN⟩
  refine ⟨⟨(i 0).val / 10000, hN⟩, flush4_2 _, ?_⟩
  rw [mem_blk]
  intro a
  match a with
  | ⟨0, _⟩ =>
    show win4_2.index ⟨(i 0).val / 10000, hN⟩ (0 : Fin 2) * 10000 ≤ (i 0).val
      ∧ (i 0).val < win4_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hN⟩ (1 : Fin 2) * 64 ≤ (i 1).val
      ∧ (i 1).val < win4_2.index ⟨(i 0).val / 10000, hN⟩ (1 : Fin 2) * 64 + 64
    rw [e5]; omega

/-- The output array after the region: `accumulate` of the two input arrays as the region found them. -/
theorem final (c : Dev nD) : (dat4 V c).arrAt 2 cfg4.N = accumulate hb (V c main_v43) (V c main_v54) :=
  (dat4 V c).arrAt_eq_of_cover 2 _ (fun t _ => flushed_eq hb V c t) cover

/-- The region as an operation: the output takes `accumulate` of the running sum and the new layer. -/
abbrev op : HloOp τ sig (Elt Ideal) :=
  binary main_v54 main_v43 main_v55 (fun x acc => accumulate hb acc x)

/-- The buffer contents at the region's exit, from any entry contents `Wd`, are that operation's result on them. -/
theorem exit_eq (Wd : Dev nD → Valuation τ sig (Elt Ideal)) (c : Dev nD) :
    Pipeline.withArrays spec4 c (Wd c) (fun w => (dat4 (fun c b => Wd c b) c).arrAt w cfg4.N)
      = (op hb).result (Wd c) := by
  refine Cert.LibRegionAsOp.withArrays_eq_result spec4 launch4.win.arr_inj c (Wd c) _ (op hb) (fun w => ?_) (fun b hb' => ?_)
  · match w with
    | ⟨0, _⟩ =>
      refine ((dat4 (fun c b => Wd c b) c).arrAt_in 0 rfl cfg4.N).trans ?_
      exact (binary_result_ne main_v54 main_v43 main_v55 _ _ _ _ (Wd c) (by decide)).symm
    | ⟨1, _⟩ =>
      refine ((dat4 (fun c b => Wd c b) c).arrAt_in 1 rfl cfg4.N).trans ?_
      exact (binary_result_ne main_v54 main_v43 main_v55 _ _ _ _ (Wd c) (by decide)).symm
    | ⟨2, _⟩ =>
      refine (final hb (fun c b => Wd c b) c).trans ?_
      exact (binary_result main_v54 main_v43 main_v55 (fun x acc => accumulate hb acc x) _ _ _ (Wd c)).symm
  · exact ⟨2, (Finset.mem_singleton.mp hb').symm⟩

end Cert.KernelIdeal.Region4

end
-- ==== Proof.Region5.lean ====
/-
  Region 5 (the edge messages) as one operation on whole arrays.

  The region walks 500 blocks of 6400 edges. At block t it loads rows 6400·t … 6400·t + 6399 of the gathered source
  features and the same rows of the weight column, and stores each feature row multiplied by its edge's weight into the
  same rows of the output. A position (e, d) of the output lies in exactly one block, t = e / 6400, so once every block is
  written back the output array holds x(e, d) · w(e, 0) at every position: the function `scaleRows` of the two input
  arrays as the region found them. The inputs are never written, so the buffer contents at the region's exit are the
  entry contents with that one array replaced — the result of a single binary operation.
-/
import proofs.«140938_j9955734192814_2_alg».proof.Proof.Gen.KernelIdeal.Frame
import proofs.«140938_j9955734192814_2_alg».proof.Proof.Stages
import proofs.«140938_j9955734192814_2_alg».proof.Proof.LibRegionAsOp
import proofs.«140938_j9955734192814_2_alg».proof.Proof.LibColumn
import Idealize.ShloMosaic.Lib.Pipeline.Value
import Idealize.ShloMosaic.Lib.Pipeline.Cells

set_option maxRecDepth 16384

noncomputable section

namespace Cert.KernelIdeal.Region5

open Cert.KernelIdeal Cert.KernelIdeal.Gen Cert.Stages
open Idealize.ShloMosaic Idealize.ShloMosaic.TcCoe Idealize.ShloMosaic.ValueIdx Idealize.ShloMosaic.StableHlo
open Idealize.ShloMosaic.Pipeline (Dat Cfg Window)

variable (hb : S3200000x1.BroadcastsInDim S3200000x64 (![0, 1] : Fin 2 → Fin S3200000x64.rank))
variable (V : (c : Dev nD) → (b : Ref sig .tc) → Buf (Elt Ideal) ((c : Thread nD τ).loc b))

theorem origin_zero : (![0, 0] : Fin 2 → Nat) = fun _ => 0 := funext fun a => by fin_cases a <;> rfl

/-- What the body stores, at one position of the block: the feature times the weight of its row. -/
theorem pay_apply (v0 : Vec Ideal S6400x64 .f32) (v2 : Vec Ideal S6400x1 .f32) (p : Fin 6400) (d : Fin 64) :
    k5_pay1 v0 v2 (ix2 p d) = v0 (ix2 p d) * v2 (ix2 p (0 : Fin 1)) := by
  unfold k5_pay1
  simp only [shapeCast_self]
  show v0 (ix2 p d) * broadcastTo S6400x64 v2 broadcasts_S6400x1_S6400x64 (ix2 p d) = _
  rw [Cert.LibColumn.broadcastTo_a1_ab_apply]

/-- Block t of each of the three windows starts at row block t and column block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

theorem point_lt (t : Fin cfg5.N) : t.val < 500 :=
  lt_of_lt_of_eq t.isLt (show cfg5.N = 500 from N_5)

/-- Position (p, d) of block t is position (6400·t + p, d) of the array, for each window. -/
theorem emb0 (t : Fin cfg5.N) (p : Fin 6400) (d : Fin 64) (h : t.val * 6400 + p.val < 3200000) :
    (((cfg5.win 0).blk t).view.emb (ix2 p d) : S3200000x64.Idx) = ix2 ⟨t.val * 6400 + p.val, h⟩ d := by
  obtain ⟨e0, e1, -, -, -, -⟩ := idx_facts t
  funext a; apply Fin.ext
  match a with
  | ⟨0, _⟩ => show win5_0.index t (0 : Fin 2) * 6400 + 1 * p.val = t.val * 6400 + p.val; rw [e0]; omega
  | ⟨1, _⟩ => show win5_0.index t (1 : Fin 2) * 64 + 1 * d.val = d.val; rw [e1]; omega

theorem emb1 (t : Fin cfg5.N) (p : Fin 6400) (u : Fin 1) (h : t.val * 6400 + p.val < 3200000) :
    (((cfg5.win 1).blk t).view.emb (ix2 p u) : S3200000x1.Idx) = ix2 ⟨t.val * 6400 + p.val, h⟩ u := by
  obtain ⟨-, -, e2, e3, -, -⟩ := idx_facts t
  funext a; apply Fin.ext
  match a with
  | ⟨0, _⟩ => show win5_1.index t (0 : Fin 2) * 6400 + 1 * p.val = t.val * 6400 + p.val; rw [e2]; omega
  | ⟨1, _⟩ => show win5_1.index t (1 : Fin 2) * 1 + 1 * u.val = u.val; rw [e3]; omega

theorem emb2 (t : Fin cfg5.N) (p : Fin 6400) (d : Fin 64) (h : t.val * 6400 + p.val < 3200000) :
    (((cfg5.win 2).blk t).view.emb (ix2 p d) : S3200000x64.Idx) = ix2 ⟨t.val * 6400 + p.val, h⟩ d := by
  obtain ⟨-, -, -, -, e4, e5⟩ := idx_facts t
  funext a; apply Fin.ext
  match a with
  | ⟨0, _⟩ => show win5_2.index t (0 : Fin 2) * 6400 + 1 * p.val = t.val * 6400 + p.val; rw [e4]; omega
  | ⟨1, _⟩ => show win5_2.index t (1 : Fin 2) * 64 + 1 * d.val = d.val; rw [e5]; omega

/-- What point t writes back is block t of `scaleRows` of the two input arrays as the region finds them. -/
theorem flushed_eq (c : Dev nD) (t : Fin cfg5.N) :
    (dat5 V c).flushed 2 t
      = ((cfg5.win 2).blk t).view.read (Elt Ideal) (scaleRows hb (V c main_v62) (V c main_v29)) := by
  show (cfg5.win 2).cut (grid5.coords t) ((dat5 V c).after 2 t) = _
  rw [after5_2]
  unfold out5_2
  rw [View.canon_unit_zero origin_zero]
  simp only [View.ld_unit_zero (S := S6400x64) origin_zero, View.ld_unit_zero (S := S6400x1) origin_zero]
  funext j
  obtain ⟨p, d, rfl⟩ : ∃ (p : Fin 6400) (d : Fin 64), j = ix2 p d := ⟨j 0, j 1, eq_ix2 j⟩
  have hp := p.isLt
  have ht := point_lt t
  have h : t.val * 6400 + p.val < 3200000 := by omega
  show k5_pay1 (iblk5 V c 0 t) (iblk5 V c 1 t) (ix2 p d)
    = scaleRows hb (V c main_v62) (V c main_v29) (((cfg5.win 2).blk t).view.emb (ix2 p d))
  refine (pay_apply (iblk5 V c 0 t) (iblk5 V c 1 t) p d).trans ?_
  rw [emb2 t p d h, scaleRows_apply]
  have h0 : iblk5 V c 0 t (ix2 p d) = V c main_v62 (ix2 ⟨t.val * 6400 + p.val, h⟩ d) := by
    show V c main_v62 (((cfg5.win 0).blk t).view.emb (ix2 p d)) = _
    exact congrArg (V c main_v62) (emb0 t p d h)
  have h1 : iblk5 V c 1 t (ix2 p (0 : Fin 1)) = V c main_v29 (ix2 ⟨t.val * 6400 + p.val, h⟩ (0 : Fin 1)) := by
    show V c main_v29 (((cfg5.win 1).blk t).view.emb (ix2 p (0 : Fin 1))) = _
    exact congrArg (V c main_v29) (emb1 t p 0 h)
  rw [h0, h1]

/-- A position of the array is in point t's block iff each coordinate is in the block's range on its axis. -/
theorem mem_blk (t : Fin cfg5.N) (i : S3200000x64.Idx) :
    i ∈ ((cfg5.win 2).blk t).view.set ↔ ∀ a : Fin 2, win5_2.index t a * S6400x64.size a ≤ (i a).val
      ∧ (i a).val < win5_2.index t a * S6400x64.size a + S6400x64.size a := by
  show i ∈ ((View.whole main_v63).slice (win5_2.rect t)).set ↔ _
  rw [View.set_slice_whole, Rect.mem_set_unit]
  exact Iff.rfl

/-- Every position (e, d) lies in the block of the point e / 6400, and every point writes its block back. -/
theorem cover (i : S3200000x64.Idx) :
    ∃ t : Fin cfg5.N, (cfg5.win 2).flush t = true ∧ i ∈ ((cfg5.win 2).blk t).view.set := by
  have hi0 : (i 0).val < 3200000 := (i 0).isLt
  have hi1 : (i 1).val < 64 := (i 1).isLt
  have hN : (i 0).val / 6400 < cfg5.N := by rw [show cfg5.N = 500 from N_5]; omega
  obtain ⟨-, -, -, -, e4, e5⟩ := idx_facts ⟨(i 0).val / 6400, hN⟩
  refine ⟨⟨(i 0).val / 6400, hN⟩, flush5_2 _, ?_⟩
  rw [mem_blk]
  intro a
  match a with
  | ⟨0, _⟩ =>
    show win5_2.index ⟨(i 0).val / 6400, hN⟩ (0 : Fin 2) * 6400 ≤ (i 0).val
      ∧ (i 0).val < win5_2.index ⟨(i 0).val / 6400, hN⟩ (0 : Fin 2) * 6400 + 6400
    rw [e4]; show (i 0).val / 6400 * 6400 ≤ (i 0).val ∧ (i 0).val < (i 0).val / 6400 * 6400 + 6400; omega
  | ⟨1, _⟩ =>
    show win5_2.index ⟨(i 0).val / 6400, hN⟩ (1 : Fin 2) * 64 ≤ (i 1).val
      ∧ (i 1).val < win5_2.index ⟨(i 0).val / 6400, hN⟩ (1 : Fin 2) * 64 + 64
    rw [e5]; omega

/-- The output array after the region: `scaleRows` of the two input arrays as the region found them. -/
theorem final (c : Dev nD) : (dat5 V c).arrAt 2 cfg5.N = scaleRows hb (V c main_v62) (V c main_v29) :=
  (dat5 V c).arrAt_eq_of_cover 2 _ (fun t _ => flushed_eq hb V c t) cover

/-- The region as an operation: the output takes `scaleRows` of the gathered features and the weight column. -/
abbrev op : HloOp τ sig (Elt Ideal) :=
  binary main_v62 main_v29 main_v63 (fun x w => scaleRows hb x w)

/-- The buffer contents at the region's exit, from any entry contents `Wd`, are that operation's result on them. -/
theorem exit_eq (Wd : Dev nD → Valuation τ sig (Elt Ideal)) (c : Dev nD) :
    Pipeline.withArrays spec5 c (Wd c) (fun w => (dat5 (fun c b => Wd c b) c).arrAt w cfg5.N)
      = (op hb).result (Wd c) := by
  refine Cert.LibRegionAsOp.withArrays_eq_result spec5 launch5.win.arr_inj c (Wd c) _ (op hb) (fun w => ?_) (fun b hb' => ?_)
  · match w with
    | ⟨0, _⟩ =>
      refine ((dat5 (fun c b => Wd c b) c).arrAt_in 0 rfl cfg5.N).trans ?_
      exact (binary_result_ne main_v62 main_v29 main_v63 _ _ _ _ (Wd c) (by decide)).symm
    | ⟨1, _⟩ =>
      refine ((dat5 (fun c b => Wd c b) c).arrAt_in 1 rfl cfg5.N).trans ?_
      exact (binary_result_ne main_v62 main_v29 main_v63 _ _ _ _ (Wd c) (by decide)).symm
    | ⟨2, _⟩ =>
      refine (final hb (fun c b => Wd c b) c).trans ?_
      exact (binary_result main_v62 main_v29 main_v63 (fun x w => scaleRows hb x w) _ _ _ (Wd c)).symm
  · exact ⟨2, (Finset.mem_singleton.mp hb').symm⟩

end Cert.KernelIdeal.Region5

end
-- ==== Proof.Region6.lean ====
/-
  Region 6 (the layer accumulation) as one operation on whole arrays.

  The region walks ten blocks of 10000 rows. At block t it loads rows 10000·t … 10000·t + 9999 of the new layer x and of
  the running sum acc, and stores acc + x · ¼ into the same rows of the output. A position (n, d) of the output lies in
  exactly one block, t = n / 10000, so once every block is written back the output array is acc + x · ¼ at every
  position: the function `accumulate` of the two input arrays as the region found them. The two inputs are never
  written. Hence the buffer contents at the region's exit are the entry contents with that one array replaced — the
  result of a single binary operation.
-/
import proofs.«140938_j9955734192814_2_alg».proof.Proof.Gen.KernelIdeal.Frame
import proofs.«140938_j9955734192814_2_alg».proof.Proof.Stages
import proofs.«140938_j9955734192814_2_alg».proof.Proof.LibRegionAsOp
import Idealize.ShloMosaic.Lib.Pipeline.Value
import Idealize.ShloMosaic.Lib.Pipeline.Cells

set_option maxRecDepth 16384

noncomputable section

namespace Cert.KernelIdeal.Region6

open Cert.KernelIdeal Cert.KernelIdeal.Gen Cert.Stages
open Idealize.ShloMosaic Idealize.ShloMosaic.TcCoe Idealize.ShloMosaic.ValueIdx Idealize.ShloMosaic.StableHlo
open Idealize.ShloMosaic.Pipeline (Dat Cfg Window)

variable (hb : S_.BroadcastsInDim S100000x64 (![] : Fin 0 → Fin S100000x64.rank))
variable (V : (c : Dev nD) → (b : Ref sig .tc) → Buf (Elt Ideal) ((c : Thread nD τ).loc b))

theorem origin_zero : (![0, 0] : Fin 2 → Nat) = fun _ => 0 := funext fun a => by fin_cases a <;> rfl

/-- What the body stores, at one position of the block: the running sum's entry plus the new layer's entry times ¼. -/
theorem pay_apply (v0 v2 : Vec Ideal S10000x64 .f32) (j : S10000x64.Idx) :
    k6_pay1 v0 v2 j = v0 j + v2 j * Ideal.ofBits .f32 0x3E800000#32 := by
  unfold k6_pay1
  simp only [shapeCast_self]
  rfl

/-- Block t of each of the three windows starts at row block t and column block 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

theorem point_lt (t : Fin cfg6.N) : t.val < 10 :=
  lt_of_lt_of_eq t.isLt (show cfg6.N = 10 from N_6)

/-- Position (p, d) of block t is position (10000·t + p, d) of the array, for each window. -/
theorem emb0 (t : Fin cfg6.N) (p : Fin 10000) (d : Fin 64) (h : t.val * 10000 + p.val < 100000) :
    (((cfg6.win 0).blk t).view.emb (ix2 p d) : S100000x64.Idx) = ix2 ⟨t.val * 10000 + p.val, h⟩ d := by
  obtain ⟨e0, e1, -, -, -, -⟩ := idx_facts t
  funext a; apply Fin.ext
  match a with
  | ⟨0, _⟩ => show win6_0.index t (0 : Fin 2) * 10000 + 1 * p.val = t.val * 10000 + p.val; rw [e0]; omega
  | ⟨1, _⟩ => show win6_0.index t (1 : Fin 2) * 64 + 1 * d.val = d.val; rw [e1]; omega

theorem emb1 (t : Fin cfg6.N) (p : Fin 10000) (d : Fin 64) (h : t.val * 10000 + p.val < 100000) :
    (((cfg6.win 1).blk t).view.emb (ix2 p d) : S100000x64.Idx) = ix2 ⟨t.val * 10000 + p.val, h⟩ d := by
  obtain ⟨-, -, e2, e3, -, -⟩ := idx_facts t
  funext a; apply Fin.ext
  match a with
  | ⟨0, _⟩ => show win6_1.index t (0 : Fin 2) * 10000 + 1 * p.val = t.val * 10000 + p.val; rw [e2]; omega
  | ⟨1, _⟩ => show win6_1.index t (1 : Fin 2) * 64 + 1 * d.val = d.val; rw [e3]; omega

theorem emb2 (t : Fin cfg6.N) (p : Fin 10000) (d : Fin 64) (h : t.val * 10000 + p.val < 100000) :
    (((cfg6.win 2).blk t).view.emb (ix2 p d) : S100000x64.Idx) = ix2 ⟨t.val * 10000 + p.val, h⟩ d := by
  obtain ⟨-, -, -, -, e4, e5⟩ := idx_facts t
  funext a; apply Fin.ext
  match a with
  | ⟨0, _⟩ => show win6_2.index t (0 : Fin 2) * 10000 + 1 * p.val = t.val * 10000 + p.val; rw [e4]; omega
  | ⟨1, _⟩ => show win6_2.index t (1 : Fin 2) * 64 + 1 * d.val = d.val; rw [e5]; omega

/-- What point t writes back is block t of `accumulate` of the two input arrays as the region finds them. -/
theorem flushed_eq (c : Dev nD) (t : Fin cfg6.N) :
    (dat6 V c).flushed 2 t
      = ((cfg6.win 2).blk t).view.read (Elt Ideal) (accumulate hb (V c main_v55) (V c main_v66)) := by
  show (cfg6.win 2).cut (grid6.coords t) ((dat6 V c).after 2 t) = _
  rw [after6_2]
  unfold out6_2
  rw [View.canon_unit_zero origin_zero]
  simp only [View.ld_unit_zero (S := S10000x64) origin_zero]
  funext j
  obtain ⟨p, d, rfl⟩ : ∃ (p : Fin 10000) (d : Fin 64), j = ix2 p d := ⟨j 0, j 1, eq_ix2 j⟩
  have hp := p.isLt
  have ht := point_lt t
  have h : t.val * 10000 + p.val < 100000 := by omega
  show k6_pay1 (iblk6 V c 1 t) (iblk6 V c 0 t) (ix2 p d)
    = accumulate hb (V c main_v55) (V c main_v66) (((cfg6.win 2).blk t).view.emb (ix2 p d))
  refine (pay_apply (iblk6 V c 1 t) (iblk6 V c 0 t) (ix2 p d)).trans ?_
  rw [emb2 t p d h, accumulate_apply]
  have h1 : iblk6 V c 1 t (ix2 p d) = V c main_v55 (ix2 ⟨t.val * 10000 + p.val, h⟩ d) := by
    show V c main_v55 (((cfg6.win 1).blk t).view.emb (ix2 p d)) = _
    exact congrArg (V c main_v55) (emb1 t p d h)
  have h0 : iblk6 V c 0 t (ix2 p d) = V c main_v66 (ix2 ⟨t.val * 10000 + p.val, h⟩ d) := by
    show V c main_v66 (((cfg6.win 0).blk t).view.emb (ix2 p d)) = _
    exact congrArg (V c main_v66) (emb0 t p d h)
  rw [h1, h0]

/-- A position of the array is in point t's block iff each coordinate is in the block's range on its axis. -/
theorem mem_blk (t : Fin cfg6.N) (i : S100000x64.Idx) :
    i ∈ ((cfg6.win 2).blk t).view.set ↔ ∀ a : Fin 2, win6_2.index t a * S10000x64.size a ≤ (i a).val
      ∧ (i a).val < win6_2.index t a * S10000x64.size a + S10000x64.size a := by
  show i ∈ ((View.whole main_v67).slice (win6_2.rect t)).set ↔ _
  rw [View.set_slice_whole, Rect.mem_set_unit]
  exact Iff.rfl

/-- Every position (n, d) lies in the block of the point n / 10000, and every point writes its block back. -/
theorem cover (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : (i 0).val / 10000 < cfg6.N := by rw [show cfg6.N = 10 from N_6]; omega
  obtain ⟨-, -, -, -, e4, e5⟩ := idx_facts ⟨(i 0).val / 10000, hN⟩
  refine ⟨⟨(i 0).val / 10000, hN⟩, flush6_2 _, ?_⟩
  rw [mem_blk]
  intro a
  match a with
  | ⟨0, _⟩ =>
    show win6_2.index ⟨(i 0).val / 10000, hN⟩ (0 : Fin 2) * 10000 ≤ (i 0).val
      ∧ (i 0).val < win6_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, hN⟩ (1 : Fin 2) * 64 ≤ (i 1).val
      ∧ (i 1).val < win6_2.index ⟨(i 0).val / 10000, hN⟩ (1 : Fin 2) * 64 + 64
    rw [e5]; omega

/-- The output array after the region: `accumulate` of the two input arrays as the region found them. -/
theorem final (c : Dev nD) : (dat6 V c).arrAt 2 cfg6.N = accumulate hb (V c main_v55) (V c main_v66) :=
  (dat6 V c).arrAt_eq_of_cover 2 _ (fun t _ => flushed_eq hb V c t) cover

/-- The region as an operation: the output takes `accumulate` of the running sum and the new layer. -/
abbrev op : HloOp τ sig (Elt Ideal) :=
  binary main_v66 main_v55 main_v67 (fun x acc => accumulate hb acc x)

/-- The buffer contents at the region's exit, from any entry contents `Wd`, are that operation's result on them. -/
theorem exit_eq (Wd : Dev nD → Valuation τ sig (Elt Ideal)) (c : Dev nD) :
    Pipeline.withArrays spec6 c (Wd c) (fun w => (dat6 (fun c b => Wd c b) c).arrAt w cfg6.N)
      = (op hb).result (Wd c) := by
  refine Cert.LibRegionAsOp.withArrays_eq_result spec6 launch6.win.arr_inj c (Wd c) _ (op hb) (fun w => ?_) (fun b hb' => ?_)
  · match w with
    | ⟨0, _⟩ =>
      refine ((dat6 (fun c b => Wd c b) c).arrAt_in 0 rfl cfg6.N).trans ?_
      exact (binary_result_ne main_v66 main_v55 main_v67 _ _ _ _ (Wd c) (by decide)).symm
    | ⟨1, _⟩ =>
      refine ((dat6 (fun c b => Wd c b) c).arrAt_in 1 rfl cfg6.N).trans ?_
      exact (binary_result_ne main_v66 main_v55 main_v67 _ _ _ _ (Wd c) (by decide)).symm
    | ⟨2, _⟩ =>
      refine (final hb (fun c b => Wd c b) c).trans ?_
      exact (binary_result main_v66 main_v55 main_v67 (fun x acc => accumulate hb acc x) _ _ _ (Wd c)).symm
  · exact ⟨2, (Finset.mem_singleton.mp hb').symm⟩

end Cert.KernelIdeal.Region6

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.Region7.lean ====
/-
  Region 7 (the scores) as one operation on whole arrays.

  The region walks 125 blocks of 8000 queries. At block t it loads rows 8000·t … 8000·t + 7999 of the two gathered
  embedding arrays, multiplies them entry by entry, sums each row over its 64 features, and stores the sums as a column
  into the same rows of the output. A position (q, 0) of the output lies in exactly one block, t = q / 8000, so once every
  block is written back the output column holds Σ_d a(q, d) · b(q, d) at every q. The host's sum along axis 1 from the
  zero word gives 0 + that sum, which is the same extended real; so the output is the function `rowDots` of the two
  input arrays as the region found them. The inputs are never written, so the buffer contents at the region's exit
  are the entry contents with that one array replaced — the result of a single binary operation.
-/
import proofs.«140938_j9955734192814_2_alg».proof.Proof.Gen.KernelIdeal.Frame
import proofs.«140938_j9955734192814_2_alg».proof.Proof.Stages
import proofs.«140938_j9955734192814_2_alg».proof.Proof.LibRegionAsOp
import proofs.«140938_j9955734192814_2_alg».proof.Proof.LibColumn
import proofs.«140938_j9955734192814_2_alg».proof.Proof.LibRowReduce
import Idealize.ShloMosaic.Lib.Pipeline.Value
import Idealize.ShloMosaic.Lib.Pipeline.Cells

set_option maxRecDepth 16384

noncomputable section

namespace Cert.KernelIdeal.Region7

open Cert.KernelIdeal Cert.KernelIdeal.Gen Cert.Stages
open Idealize.ShloMosaic Idealize.ShloMosaic.TcCoe Idealize.ShloMosaic.ValueIdx Idealize.ShloMosaic.StableHlo
open Idealize.ShloMosaic.Pipeline (Dat Cfg Window)

variable (hr : S1000000x64.ReducesTo [1] S1000000) (hz : 0 < S_.numel) (hs : S1000000.ShapeCasts S1000000x1)
variable (V : (c : Dev nD) → (b : Ref sig .tc) → Buf (Elt Ideal) ((c : Thread nD τ).loc b))

theorem origin_zero : (![0, 0] : Fin 2 → Nat) = fun _ => 0 := funext fun a => by fin_cases a <;> rfl

/-- What the body stores, at one position of the block: the sum over the 64 features of the products of the two rows. -/
theorem pay_apply (v0 v2 : Vec Ideal S8000x64 .f32) (p : Fin 8000) (u : Fin 1) :
    k7_pay1 v0 v2 (ix2 p u) = ∑ d : Fin 64, v0 (ix2 p d) * v2 (ix2 p d) := by
  unfold k7_pay1
  simp only [shapeCast_self]
  rw [Cert.LibColumn.shapeCast_a_a1_apply]
  exact Cert.LibRowReduce.rowSum_apply (mulf v0 v2) 0x00000000#32 reduces_S8000x64_S8000 (.inl rfl) rfl p

/-- Block t of each of the three windows starts at row block t and column block 0. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

theorem point_lt (t : Fin cfg7.N) : t.val < 125 :=
  lt_of_lt_of_eq t.isLt (show cfg7.N = 125 from N_7)

/-- Position (p, d) of block t is position (8000·t + p, d) of the array, for each window. -/
theorem emb0 (t : Fin cfg7.N) (p : Fin 8000) (d : Fin 64) (h : t.val * 8000 + p.val < 1000000) :
    (((cfg7.win 0).blk t).view.emb (ix2 p d) : S1000000x64.Idx) = ix2 ⟨t.val * 8000 + p.val, h⟩ d := by
  obtain ⟨e0, e1, -, -, -, -⟩ := idx_facts t
  funext a; apply Fin.ext
  match a with
  | ⟨0, _⟩ => show win7_0.index t (0 : Fin 2) * 8000 + 1 * p.val = t.val * 8000 + p.val; rw [e0]; omega
  | ⟨1, _⟩ => show win7_0.index t (1 : Fin 2) * 64 + 1 * d.val = d.val; rw [e1]; omega

theorem emb1 (t : Fin cfg7.N) (p : Fin 8000) (d : Fin 64) (h : t.val * 8000 + p.val < 1000000) :
    (((cfg7.win 1).blk t).view.emb (ix2 p d) : S1000000x64.Idx) = ix2 ⟨t.val * 8000 + p.val, h⟩ d := by
  obtain ⟨-, -, e2, e3, -, -⟩ := idx_facts t
  funext a; apply Fin.ext
  match a with
  | ⟨0, _⟩ => show win7_1.index t (0 : Fin 2) * 8000 + 1 * p.val = t.val * 8000 + p.val; rw [e2]; omega
  | ⟨1, _⟩ => show win7_1.index t (1 : Fin 2) * 64 + 1 * d.val = d.val; rw [e3]; omega

theorem emb2 (t : Fin cfg7.N) (p : Fin 8000) (u : Fin 1) (h : t.val * 8000 + p.val < 1000000) :
    (((cfg7.win 2).blk t).view.emb (ix2 p u) : S1000000x1.Idx) = ix2 ⟨t.val * 8000 + p.val, h⟩ u := by
  obtain ⟨-, -, -, -, e4, e5⟩ := idx_facts t
  funext a; apply Fin.ext
  match a with
  | ⟨0, _⟩ => show win7_2.index t (0 : Fin 2) * 8000 + 1 * p.val = t.val * 8000 + p.val; rw [e4]; omega
  | ⟨1, _⟩ => show win7_2.index t (1 : Fin 2) * 1 + 1 * u.val = u.val; rw [e5]; omega

/-- What point t writes back is block t of `rowDots` of the two input arrays as the region finds them. -/
theorem flushed_eq (c : Dev nD) (t : Fin cfg7.N) :
    (dat7 V c).flushed 2 t
      = ((cfg7.win 2).blk t).view.read (Elt Ideal) (rowDots hr hz hs (V c main_v78) (V c main_v85)) := by
  show (cfg7.win 2).cut (grid7.coords t) ((dat7 V c).after 2 t) = _
  rw [after7_2]
  unfold out7_2
  rw [View.canon_unit_zero origin_zero]
  simp only [View.ld_unit_zero (S := S8000x64) origin_zero]
  funext j
  obtain ⟨p, u, rfl⟩ : ∃ (p : Fin 8000) (u : Fin 1), j = ix2 p u := ⟨j 0, j 1, eq_ix2 j⟩
  have hp := p.isLt
  have ht := point_lt t
  have h : t.val * 8000 + p.val < 1000000 := by omega
  show k7_pay1 (iblk7 V c 0 t) (iblk7 V c 1 t) (ix2 p u)
    = rowDots hr hz hs (V c main_v78) (V c main_v85) (((cfg7.win 2).blk t).view.emb (ix2 p u))
  refine (pay_apply (iblk7 V c 0 t) (iblk7 V c 1 t) p u).trans ?_
  rw [emb2 t p u h, rowDots_apply, Ideal.ofBits_zero_f32, zero_add]
  refine Finset.sum_congr rfl fun d _ => ?_
  have h0 : iblk7 V c 0 t (ix2 p d) = V c main_v78 (ix2 ⟨t.val * 8000 + p.val, h⟩ d) := by
    show V c main_v78 (((cfg7.win 0).blk t).view.emb (ix2 p d)) = _
    exact congrArg (V c main_v78) (emb0 t p d h)
  have h1 : iblk7 V c 1 t (ix2 p d) = V c main_v85 (ix2 ⟨t.val * 8000 + p.val, h⟩ d) := by
    show V c main_v85 (((cfg7.win 1).blk t).view.emb (ix2 p d)) = _
    exact congrArg (V c main_v85) (emb1 t p d h)
  rw [h0, h1]

/-- A position of the array is in point t's block iff each coordinate is in the block's range on its axis. -/
theorem mem_blk (t : Fin cfg7.N) (i : S1000000x1.Idx) :
    i ∈ ((cfg7.win 2).blk t).view.set ↔ ∀ a : Fin 2, win7_2.index t a * S8000x1.size a ≤ (i a).val
      ∧ (i a).val < win7_2.index t a * S8000x1.size a + S8000x1.size a := by
  show i ∈ ((View.whole main_v86).slice (win7_2.rect t)).set ↔ _
  rw [View.set_slice_whole, Rect.mem_set_unit]
  exact Iff.rfl

/-- Every position (q, 0) lies in the block of the point q / 8000, and every point writes its block back. -/
theorem cover (i : S1000000x1.Idx) :
    ∃ t : Fin cfg7.N, (cfg7.win 2).flush t = true ∧ i ∈ ((cfg7.win 2).blk t).view.set := by
  have hi0 : (i 0).val < 1000000 := (i 0).isLt
  have hi1 : (i 1).val < 1 := (i 1).isLt
  have hN : (i 0).val / 8000 < cfg7.N := by rw [show cfg7.N = 125 from N_7]; omega
  obtain ⟨-, -, -, -, e4, e5⟩ := idx_facts ⟨(i 0).val / 8000, hN⟩
  refine ⟨⟨(i 0).val / 8000, hN⟩, flush7_2 _, ?_⟩
  rw [mem_blk]
  intro a
  match a with
  | ⟨0, _⟩ =>
    show win7_2.index ⟨(i 0).val / 8000, hN⟩ (0 : Fin 2) * 8000 ≤ (i 0).val
      ∧ (i 0).val < win7_2.index ⟨(i 0).val / 8000, hN⟩ (0 : Fin 2) * 8000 + 8000
    rw [e4]; show (i 0).val / 8000 * 8000 ≤ (i 0).val ∧ (i 0).val < (i 0).val / 8000 * 8000 + 8000; omega
  | ⟨1, _⟩ =>
    show win7_2.index ⟨(i 0).val / 8000, hN⟩ (1 : Fin 2) * 1 ≤ (i 1).val
      ∧ (i 1).val < win7_2.index ⟨(i 0).val / 8000, hN⟩ (1 : Fin 2) * 1 + 1
    rw [e5]; omega

/-- The output column after the region: `rowDots` of the two input arrays as the region found them. -/
theorem final (c : Dev nD) : (dat7 V c).arrAt 2 cfg7.N = rowDots hr hz hs (V c main_v78) (V c main_v85) :=
  (dat7 V c).arrAt_eq_of_cover 2 _ (fun t _ => flushed_eq hr hz hs V c t) cover

/-- The region as an operation: the output takes `rowDots` of the two gathered embedding arrays. -/
abbrev op : HloOp τ sig (Elt Ideal) :=
  binary main_v78 main_v85 main_v86 (fun a b => rowDots hr hz hs a b)

/-- The buffer contents at the region's exit, from any entry contents `Wd`, are that operation's result on them. -/
theorem exit_eq (Wd : Dev nD → Valuation τ sig (Elt Ideal)) (c : Dev nD) :
    Pipeline.withArrays spec7 c (Wd c) (fun w => (dat7 (fun c b => Wd c b) c).arrAt w cfg7.N)
      = (op hr hz hs).result (Wd c) := by
  refine Cert.LibRegionAsOp.withArrays_eq_result spec7 launch7.win.arr_inj c (Wd c) _ (op hr hz hs) (fun w => ?_) (fun b hb' => ?_)
  · match w with
    | ⟨0, _⟩ =>
      refine ((dat7 (fun c b => Wd c b) c).arrAt_in 0 rfl cfg7.N).trans ?_
      exact (binary_result_ne main_v78 main_v85 main_v86 _ _ _ _ (Wd c) (by decide)).symm
    | ⟨1, _⟩ =>
      refine ((dat7 (fun c b => Wd c b) c).arrAt_in 1 rfl cfg7.N).trans ?_
      exact (binary_result_ne main_v78 main_v85 main_v86 _ _ _ _ (Wd c) (by decide)).symm
    | ⟨2, _⟩ =>
      refine (final hr hz hs (fun c b => Wd c b) c).trans ?_
      exact (binary_result main_v78 main_v85 main_v86 (fun a b => rowDots hr hz hs a b) _ _ _ (Wd c)).symm
  · exact ⟨2, (Finset.mem_singleton.mp hb').symm⟩

end Cert.KernelIdeal.Region7

end
-- ==== Proof.KernelFold.lean ====
/-
  The kernel's buffer contents, boundary by boundary, as a fold of pure operations.

  Between the launch and the return the program alternates stretches of host operations with eight regions. A
  stretch's effect on the buffers is the fold of its operations; a region's effect is, by the region modules, the result
  of one binary operation on whole arrays (`accumulate`, `scaleRows` or `rowDots` of two of its entry arrays). So the
  contents at each region's exit are that operation's result on the contents at its entry, and the whole run is one
  straight line of pure operations from the launch memory. Region 0 is entered with the running sum all zero, so its
  operation is simply emb ↦ emb · ¼.

  Two facts about the stage functions, used when this line is compared with the reference's:
  * accumulating onto the all-zero array adds nothing: 0 + x · ¼ = x · ¼ at every position, for every extended real;
  * the score column, reshaped back to a vector, is the host's row sum it was built from.
-/
import proofs.«140938_j9955734192814_2_alg».proof.Proof.Gen.KernelIdeal.Frame
import proofs.«140938_j9955734192814_2_alg».proof.Proof.Stages
import proofs.«140938_j9955734192814_2_alg».proof.Proof.Region0
import proofs.«140938_j9955734192814_2_alg».proof.Proof.Region1
import proofs.«140938_j9955734192814_2_alg».proof.Proof.Region2
import proofs.«140938_j9955734192814_2_alg».proof.Proof.Region3
import proofs.«140938_j9955734192814_2_alg».proof.Proof.Region4
import proofs.«140938_j9955734192814_2_alg».proof.Proof.Region5
import proofs.«140938_j9955734192814_2_alg».proof.Proof.Region6
import proofs.«140938_j9955734192814_2_alg».proof.Proof.Region7

noncomputable section

namespace Cert.KernelIdeal.Fold

open Cert.KernelIdeal Cert.KernelIdeal.Gen Cert.Stages
open Idealize.ShloMosaic Idealize.ShloMosaic.TcCoe Idealize.ShloMosaic.ValueIdx Idealize.ShloMosaic.StableHlo

/-! ## The shape relations the stage functions take -/

theorem spread_scalar : S_.BroadcastsInDim S100000x64 (![] : Fin 0 → Fin S100000x64.rank) := by decide
theorem spread_column : S3200000x1.BroadcastsInDim S3200000x64 (![0, 1] : Fin 2 → Fin S3200000x64.rank) := by decide
theorem rows_reduce : S1000000x64.ReducesTo [1] S1000000 := by decide
theorem scalar_nonempty : 0 < S_.numel := by decide
theorem vector_as_column : S1000000.ShapeCasts S1000000x1 := by decide

/-! ## The outlined `where` call's typed references carry nothing

The host function @_where (the select of 1/√max(deg, 1) against 0) names its values by typed references; each operation
carries an operand from its buffer's type to the value's type and the result back. For each of these buffers the two
types are the same type, so each transport is the identity. -/

section TypedRefs
open StableHlo

theorem toBuf_v13 (h1 : main_v13.ty = ⟨S100000, .f32⟩) (h2 h3) (v : (⟨S100000, .f32⟩ : BufTy).Contents (Elt Ideal)) :
    (TRef.of (T := ⟨S100000, .f32⟩) main_v13 h1 h2 h3).toBuf v = v := rfl
theorem ofBuf_v9 (h1 : main_v9.ty = ⟨S100000, .i1⟩) (h2 h3) (v : (⟨S100000, .i1⟩ : BufTy).Contents (Elt Ideal)) :
    (TRef.of (T := ⟨S100000, .i1⟩) main_v9 h1 h2 h3).ofBuf v = v := rfl
theorem ofBuf_v12 (h1 : main_v12.ty = ⟨S100000, .f32⟩) (h2 h3) (v : (⟨S100000, .f32⟩ : BufTy).Contents (Elt Ideal)) :
    (TRef.of (T := ⟨S100000, .f32⟩) main_v12 h1 h2 h3).ofBuf v = v := rfl
theorem ofBuf_call0_v1 (h1 : main_call0_v1.ty = ⟨S100000, .f32⟩) (h2 h3) (v : (⟨S100000, .f32⟩ : BufTy).Contents (Elt Ideal)) :
    (TRef.of (T := ⟨S100000, .f32⟩) main_call0_v1 h1 h2 h3).ofBuf v = v := rfl
theorem toBuf_call0_v1 (h1 : main_call0_v1.ty = ⟨S100000, .f32⟩) (h2 h3) (v : (⟨S100000, .f32⟩ : BufTy).Contents (Elt Ideal)) :
    (TRef.of (T := ⟨S100000, .f32⟩) main_call0_v1 h1 h2 h3).toBuf v = v := rfl
theorem ofBuf_call0_v0 (h1 : main_call0_v0.ty = ⟨S_, .f32⟩) (h2 h3) (v : (⟨S_, .f32⟩ : BufTy).Contents (Elt Ideal)) :
    (TRef.of (T := ⟨S_, .f32⟩) main_call0_v0 h1 h2 h3).ofBuf v = v := rfl
theorem toBuf_call0_v0 (h1 : main_call0_v0.ty = ⟨S_, .f32⟩) (h2 h3) (v : (⟨S_, .f32⟩ : BufTy).Contents (Elt Ideal)) :
    (TRef.of (T := ⟨S_, .f32⟩) main_call0_v0 h1 h2 h3).toBuf v = v := rfl
theorem ofBuf_cst_3 (h1 : main_cst_3.ty = ⟨S_, .f32⟩) (h2 h3) (v : (⟨S_, .f32⟩ : BufTy).Contents (Elt Ideal)) :
    (TRef.of (T := ⟨S_, .f32⟩) main_cst_3 h1 h2 h3).ofBuf v = v := rfl

end TypedRefs

/-! ## Two facts about the stage functions -/

/-- Accumulating onto the all-zero array: 0 + x · ¼ is x · ¼, at every position and for every extended real. -/
theorem accumulate_zero (hb : S_.BroadcastsInDim S100000x64 (![] : Fin 0 → Fin S100000x64.rank))
    (hb' : S_.BroadcastsInDim S100000x64 (![] : Fin 0 → Fin S100000x64.rank)) (x : FVec Ideal S100000x64 .f32) :
    accumulate hb (broadcastInDim S100000x64 ![] hb' (constant S_ .f32 0x00000000#32)) x
      = mulf x (broadcastInDim S100000x64 ![] hb (constant S_ .f32 0x3E800000#32)) := by
  funext i
  show broadcastInDim S100000x64 ![] hb' (constant (F := Ideal) S_ .f32 0x00000000#32) i
      + mulf x (broadcastInDim S100000x64 ![] hb (constant S_ .f32 0x3E800000#32)) i = _
  rw [Cert.LibHostBroadcast.scalar_to_any, constant_apply, Ideal.ofBits_zero_f32, zero_add]

/-- The score column reshaped to a vector is the row sum it was made from. -/
theorem rowDots_as_vector (hr : S1000000x64.ReducesTo [1] S1000000) (hz : 0 < S_.numel) (hs : S1000000.ShapeCasts S1000000x1)
    (hs' : S1000000x1.ShapeCasts S1000000) (a b : FVec Ideal S1000000x64 .f32) :
    shapeCast S1000000 (rowDots hr hz hs a b) hs' = Host.reduceAdd (mulf a b) (constant S_ .f32 0x00000000#32) hr hz :=
  shapeCast_shapeCast _ hs hs'

/-! ## Each region's exit contents from its entry contents -/

variable (m : (ℓ : Loc nD τ sig) → Buf (Elt Ideal) ℓ) (ρ : Dev nD → PrngReg)

/-- The running sum that region 0 reads is the all-zero array the stretch before it has just made. -/
theorem zeros_at_entry (c : Dev nD) :
    W3 m ρ c (Proc.devRef .tc main_v30)
      = (broadcastInDim S100000x64 ![] bcast_S_S100000x64 (constant (F := Ideal) S_ .f32 0x00000000#32)
          : FVec Ideal S100000x64 .f32) := by
  simp (disch := decide) only [W3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

/-- emb ↦ emb · ¼ on the whole table: what region 0 computes when the running sum it reads is all zero. -/
def quarter (x : FVec Ideal S100000x64 .f32) : FVec Ideal S100000x64 .f32 :=
  mulf x (broadcastInDim S100000x64 ![] spread_scalar (constant S_ .f32 0x3E800000#32))

/-- Region 0 as an operation: one unary operation on the table. -/
abbrev quarterOp : HloOp τ sig (Elt Ideal) :=
  unary main_arg0 main_v31 quarter

set_option maxHeartbeats 2000000 in
theorem W4_eq (c : Dev nD) : W4 m ρ c = quarterOp.result (W3 m ρ c) := by
  unfold W4
  refine Cert.LibRegionAsOp.withArrays_eq_result spec0 launch0.win.arr_inj c (W3 m ρ c) _ quarterOp (fun w => ?_) (fun b hb' => ?_)
  · match w with
    | ⟨0, _⟩ =>
      refine ((dat0 (V3 m ρ) c).arrAt_in 0 rfl cfg0.N).trans ?_
      exact (unary_result_ne main_arg0 main_v31 quarter _ _ (W3 m ρ c) (r := main_arg0) (by decide)).symm
    | ⟨1, _⟩ =>
      refine ((dat0 (V3 m ρ) c).arrAt_in 1 rfl cfg0.N).trans ?_
      exact (unary_result_ne main_arg0 main_v31 quarter _ _ (W3 m ρ c) (r := main_v30) (by decide)).symm
    | ⟨2, _⟩ =>
      exact (Region0.final spread_scalar (V3 m ρ) c).trans
        ((congrArg (fun z => accumulate spread_scalar z (V3 m ρ c main_arg0)) (zeros_at_entry m ρ c)).trans
          ((accumulate_zero _ _ _).trans (unary_result main_arg0 main_v31 quarter _ _ (W3 m ρ c)).symm))
  · exact ⟨2, (Finset.mem_singleton.mp hb').symm⟩

theorem W6_eq (c : Dev nD) : W6 m ρ c = (Region1.op spread_column).result (W5 m ρ c) :=
  Region1.exit_eq spread_column (W5 m ρ) c
theorem W8_eq (c : Dev nD) : W8 m ρ c = (Region2.op spread_scalar).result (W7 m ρ c) :=
  Region2.exit_eq spread_scalar (W7 m ρ) c
theorem W10_eq (c : Dev nD) : W10 m ρ c = (Region3.op spread_column).result (W9 m ρ c) :=
  Region3.exit_eq spread_column (W9 m ρ) c
theorem W12_eq (c : Dev nD) : W12 m ρ c = (Region4.op spread_scalar).result (W11 m ρ c) :=
  Region4.exit_eq spread_scalar (W11 m ρ) c
theorem W14_eq (c : Dev nD) : W14 m ρ c = (Region5.op spread_column).result (W13 m ρ c) :=
  Region5.exit_eq spread_column (W13 m ρ) c
theorem W16_eq (c : Dev nD) : W16 m ρ c = (Region6.op spread_scalar).result (W15 m ρ c) :=
  Region6.exit_eq spread_scalar (W15 m ρ) c
theorem W18_eq (c : Dev nD) : W18 m ρ c = (Region7.op rows_reduce scalar_nonempty vector_as_column).result (W17 m ρ c) :=
  Region7.exit_eq rows_reduce scalar_nonempty vector_as_column (W17 m ρ) c

end Cert.KernelIdeal.Fold

end
-- ==== Proof.Bridge.lean ====
/-
  The reference's result is the kernel's, as extended reals.

  Both programs compute, from the embedding table emb, the edge list and the query list:
    deg(n) = number of edges into n,   dis = 1/√max(deg, 1) where deg > 0, else 0,   w(e) = dis(src e) · dis(dst e),
    x₀ = emb,   x_{k+1}(n, ·) = Σ_{e : dst e = n} x_k(src e, ·) · w(e)     (a gather, a scaling of rows, a scatter-add),
    out = ((x₀·¼ + x₁·¼) + x₂·¼) + x₃·¼,   score(q) = Σ_d out(q₀ q, d) · out(q₁ q, d).
  The index plumbing (slices, negative-index wrap-around, gathers, scatter-adds) and the weights are the same host
  operations in both, applied in the same order. The kernel differs only inside its regions:
  * the running sum starts as 0 + x₀·¼ where the reference has x₀·¼: equal, since 0 + y = y for every extended real;
  * each x_k(src e, ·) · w(e) and each acc + x·¼ is computed block by block: the same arrays (the region modules);
  * the scores are summed per block into a column and reshaped to a vector: the same vector.
  No law that needs finiteness is used: sums and products are taken in the same order on both sides.

  Here the kernel's final buffer contents are folded to one term of the launch memory (region 0 already as emb ↦ emb · ¼),
  the identity transports of the outlined `where` call are dropped, the score column's reshape is undone, and what
  remains is the reference's term, operation for operation.
-/
import proofs.«140938_j9955734192814_2_alg».proof.Proof.RefRun
import proofs.«140938_j9955734192814_2_alg».proof.Proof.KernelFold

set_option maxRecDepth 16384

noncomputable section

namespace Cert.Bridge

open Cert.KernelIdeal Cert.KernelIdeal.Gen Cert.Stages
open Idealize.ShloMosaic Idealize.ShloMosaic.TcCoe Idealize.ShloMosaic.StableHlo Idealize.SL.Sem

set_option maxHeartbeats 100000000 in
/-- From memories that agree on the three arguments, the reference's result term is the kernel's result buffer at the
    end of its run. -/
theorem result_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.ValueP.res_main_v96 m' c = W19 m ρ c (Proc.devRef .tc main_v87) := by
  unfold Cert.ReferenceIdeal.ValueP.res_main_v96
  rw [h0, h1, h2]
  simp (disch := decide) only [W19, W17, W15, W13, W11, W9, W7, W5, W3, W2, W1,
      Fold.W18_eq, Fold.W16_eq, Fold.W14_eq, Fold.W12_eq, Fold.W10_eq, Fold.W8_eq, Fold.W6_eq, Fold.W4_eq,
      Fold.toBuf_v13, Fold.ofBuf_v9, Fold.ofBuf_v12, Fold.ofBuf_call0_v1, Fold.toBuf_call0_v1, Fold.ofBuf_call0_v0,
      Fold.toBuf_call0_v0, Fold.ofBuf_cst_3,
      Fold.quarterOp, Region1.op, Region2.op, Region3.op, Region4.op, Region5.op, Region6.op, Region7.op,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  refine Eq.trans ?_ (Fold.rowDots_as_vector _ _ _ _ _ _).symm
  unfold accumulate scaleRows Fold.quarter
  rfl

end Cert.Bridge

end
-- ==== Proof.lean ====
/-
  The proof of `Cert.Claim`: the three frames, the idealization, and the equality of results over the extended reals.

  The kernel is a three-layer graph propagation (LightGCN): from an embedding table emb [100000, 64], an edge list
  [2, 3200000] and a query list [2, 1000000] it computes the in-degree normalisation w(e) = dis(src e) · dis(dst e), three
  rounds x_{k+1} = scatter-add over dst of x_k(src e, ·) · w(e), the running sum out = Σ_k x_k · ¼, and the scores
  Σ_d out(q₀, d) · out(q₁, d). Gathers and scatter-adds are host operations; the row scaling, the accumulation and the
  row dot products are eight pipelined regions. The reference does all of it with host operations.

  * The frames of the two kernel programs are the generated frame certificates; the reference's frame is its run with the
    result dropped.
  * The ideal pass rewrote nothing, so the idealization claim is `True`.
  * For the value claim the common result is the kernel's result buffer at the end of its run (`KernelRun`); the
    reference ends with the same contents because each region is one pure operation on whole arrays (the region
    modules, `KernelFold`) and the resulting straight line of operations is the reference's up to 0 + y = y and a
    reshape (`Bridge`). The precondition (finite inputs) is not used: both sides take the same sums and products in the
    same order, which is an identity on all extended reals.
-/
import proofs.«140938_j9955734192814_2_alg».proof.Defs
import proofs.«140938_j9955734192814_2_alg».proof.Proof.Gen.Kernel
import proofs.«140938_j9955734192814_2_alg».proof.Proof.Gen.Kernel.Skeleton
import proofs.«140938_j9955734192814_2_alg».proof.Proof.Gen.Kernel.Launch
import proofs.«140938_j9955734192814_2_alg».proof.Proof.Gen.Kernel.Points
import proofs.«140938_j9955734192814_2_alg».proof.Proof.Gen.Kernel.Frame
import proofs.«140938_j9955734192814_2_alg».proof.Proof.Gen.KernelIdeal
import proofs.«140938_j9955734192814_2_alg».proof.Proof.Gen.KernelIdeal.Skeleton
import proofs.«140938_j9955734192814_2_alg».proof.Proof.Gen.KernelIdeal.Launch
import proofs.«140938_j9955734192814_2_alg».proof.Proof.Gen.KernelIdeal.Points
import proofs.«140938_j9955734192814_2_alg».proof.Proof.Gen.KernelIdeal.Frame
import proofs.«140938_j9955734192814_2_alg».proof.Proof.Gen.ReferenceIdeal
import proofs.«140938_j9955734192814_2_alg».proof.Proof.Gen.Pre_finite_inputs
import proofs.«140938_j9955734192814_2_alg».proof.Proof.RefRun
import proofs.«140938_j9955734192814_2_alg».proof.Proof.KernelRun
import proofs.«140938_j9955734192814_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the same result: the kernel's result buffer at the
    end of its run, which the reference's composed term equals. -/
theorem algebraic : Cert.algebraic_KernelIdeal_ReferenceIdeal := by
  intro m ρ m' ρ' _ hagree
  refine ⟨fun c => Cert.KernelIdeal.Gen.W19 m ρ c (Proc.devRef .tc Cert.KernelIdeal.main_v87),
    Cert.KernelIdeal.Run.run_result m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_agree m ρ m' c (hagree c).1 (hagree c).2.1 (hagree c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
